-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S3x131072 : Shape := ⟨2, ![3, 131072]⟩
abbrev S131072 : Shape := ⟨1, ![131072]⟩
abbrev S100 : Shape := ⟨1, ![100]⟩
abbrev S512x970 : Shape := ⟨2, ![512, 970]⟩
abbrev S512x512 : Shape := ⟨2, ![512, 512]⟩
abbrev S256x512 : Shape := ⟨2, ![256, 512]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S131072 : S_.BroadcastsInDim S131072 (![] : Fin 0 → Fin S131072.rank)
  reducesTo_S131072_S_d0 : S131072.ReducesTo [0] S_
  bcast_S_S100 : S_.BroadcastsInDim S100 (![] : Fin 0 → Fin S100.rank)
  reducesTo_S100_S_d0 : S100.ReducesTo [0] S_
  bcast_S_S512x970 : S_.BroadcastsInDim S512x970 (![] : Fin 0 → Fin S512x970.rank)
  reducesTo_S512x970_S_d0_1 : S512x970.ReducesTo [0, 1] S_
  bcast_S_S512x512 : S_.BroadcastsInDim S512x512 (![] : Fin 0 → Fin S512x512.rank)
  reducesTo_S512x512_S_d0_1 : S512x512.ReducesTo [0, 1] S_
  bcast_S_S256x512 : S_.BroadcastsInDim S256x512 (![] : Fin 0 → Fin S256x512.rank)
  reducesTo_S256x512_S_d0_1 : S256x512.ReducesTo [0, 1] S_

variable [Facts]

def fn_part3 {F : FTy → Type} [FloatOps F] (main_v48 : IVec S_ 1) (main_v49 : FVec F S256x512 .f32) (main_v50 : FVec F S256x512 .f32) : IVec S_ 1 :=
  let main_v51 : IVec S256x512 1 := cmpf .olt main_v49 main_v50
  let main_c_19 : IVec S_ 1 := constantI S_ 1 1#1
  let main_v52 : IVec S_ 1 := (fun x v => Host.reduce IntOp.andi x v reducesTo_S256x512_S_d0_1 h_S_) main_v51 main_c_19
  let main_v53 : IVec S_ 1 := andi main_v48 main_v52
  main_v53

def fn_part2 {F : FTy → Type} [FloatOps F] (main_arg8 : FVec F S512x512 .f32) (main_arg9 : FVec F S512x512 .f32) (main_arg10 : FVec F S512x512 .f32) (main_arg11 : FVec F S256x512 .f32) (main_v33 : IVec S_ 1) : IVec S_ 1 :=
  let main_v34 : FVec F S512x512 .f32 := Host.absf main_arg8
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512x512 .f32 := Host.absf main_arg9
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512x512 .f32 := Host.absf main_arg10
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S256x512 .f32 := Host.absf main_arg11
  let main_cst_18 : FVec F S_ .f32 := constant S_ .f32 0x7F800000#32
  let main_v50 : FVec F S256x512 .f32 := broadcastInDim S256x512 ![] bcast_S_S256x512 main_cst_18
  fn_part3 (F := F) main_v48 main_v49 main_v50

def fn_part1 {F : FTy → Type} [FloatOps F] (main_arg5 : FVec F S131072 .f32) (main_arg6 : FVec F S100 .f32) (main_arg7 : FVec F S512x970 .f32) (main_arg8 : FVec F S512x512 .f32) (main_arg9 : FVec F S512x512 .f32) (main_arg10 : FVec F S512x512 .f32) (main_arg11 : FVec F S256x512 .f32) (main_v13 : IVec S_ 1) (main_v16 : IVec S131072 1) : IVec S_ 1 :=
  let main_c_5 : IVec S_ 1 := constantI S_ 1 1#1
  let main_v17 : IVec S_ 1 := (fun x v => Host.reduce IntOp.andi x v reducesTo_S131072_S_d0 h_S_) main_v16 main_c_5
  let main_v18 : IVec S_ 1 := andi main_v13 main_v17
  let main_v19 : FVec F S131072 .f32 := Host.absf main_arg5
  let main_cst_6 : FVec F S_ .f32 := constant S_ .f32 0x7F800000#32
  let main_v20 : FVec F S131072 .f32 := broadcastInDim S131072 ![] bcast_S_S131072 main_cst_6
  let main_v21 : IVec S131072 1 := cmpf .olt main_v19 main_v20
  let main_c_7 : IVec S_ 1 := constantI S_ 1 1#1
  let main_v22 : IVec S_ 1 := (fun x v => Host.reduce IntOp.andi x v reducesTo_S131072_S_d0 h_S_) main_v21 main_c_7
  let main_v23 : IVec S_ 1 := andi main_v18 main_v22
  let main_v24 : FVec F S100 .f32 := Host.absf main_arg6
  let main_cst_8 : FVec F S_ .f32 := constant S_ .f32 0x7F800000#32
  let main_v25 : FVec F S100 .f32 := broadcastInDim S100 ![] bcast_S_S100 main_cst_8
  let main_v26 : IVec S100 1 := cmpf .olt main_v24 main_v25
  let main_c_9 : IVec S_ 1 := constantI S_ 1 1#1
  let main_v27 : IVec S_ 1 := (fun x v => Host.reduce IntOp.andi x v reducesTo_S100_S_d0 h_S_) main_v26 main_c_9
  let main_v28 : IVec S_ 1 := andi main_v23 main_v27
  let main_v29 : FVec F S512x970 .f32 := Host.absf main_arg7
  let main_cst_10 : FVec F S_ .f32 := constant S_ .f32 0x7F800000#32
  let main_v30 : FVec F S512x970 .f32 := broadcastInDim S512x970 ![] bcast_S_S512x970 main_cst_10
  let main_v31 : IVec S512x970 1 := cmpf .olt main_v29 main_v30
  let main_c_11 : IVec S_ 1 := constantI S_ 1 1#1
  let main_v32 : IVec S_ 1 := (fun x v => Host.reduce IntOp.andi x v reducesTo_S512x970_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x256 .f32) (main_arg1 : IVec S3x131072 32) (main_arg2 : FVec F S131072 .f32) (main_arg3 : FVec F S131072 .f32) (main_arg4 : FVec F S131072 .f32) (main_arg5 : FVec F S131072 .f32) (main_arg6 : FVec F S100 .f32) (main_arg7 : FVec F S512x970 .f32) (main_arg8 : FVec F S512x512 .f32) (main_arg9 : FVec F S512x512 .f32) (main_arg10 : FVec F S512x512 .f32) (main_arg11 : FVec F S256x512 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S131072 .f32 := Host.absf main_arg2
  let main_cst_0 : FVec F S_ .f32 := constant S_ .f32 0x7F800000#32
  let main_v5 : FVec F S131072 .f32 := broadcastInDim S131072 ![] bcast_S_S131072 main_cst_0
  let main_v6 : IVec S131072 1 := cmpf .olt main_v4 main_v5
  let main_c_1 : IVec S_ 1 := constantI S_ 1 1#1
  let main_v7 : IVec S_ 1 := (fun x v => Host.reduce IntOp.andi x v reducesTo_S131072_S_d0 h_S_) main_v6 main_c_1
  let main_v8 : IVec S_ 1 := andi main_v3 main_v7
  let main_v9 : FVec F S131072 .f32 := Host.absf main_arg3
  let main_cst_2 : FVec F S_ .f32 := constant S_ .f32 0x7F800000#32
  let main_v10 : FVec F S131072 .f32 := broadcastInDim S131072 ![] bcast_S_S131072 main_cst_2
  let main_v11 : IVec S131072 1 := cmpf .olt main_v9 main_v10
  let main_c_3 : IVec S_ 1 := constantI S_ 1 1#1
  let main_v12 : IVec S_ 1 := (fun x v => Host.reduce IntOp.andi x v reducesTo_S131072_S_d0 h_S_) main_v11 main_c_3
  let main_v13 : IVec S_ 1 := andi main_v8 main_v12
  let main_v14 : FVec F S131072 .f32 := Host.absf main_arg4
  let main_cst_4 : FVec F S_ .f32 := constant S_ .f32 0x7F800000#32
  let main_v15 : FVec F S131072 .f32 := broadcastInDim S131072 ![] bcast_S_S131072 main_cst_4
  let main_v16 : IVec S131072 1 := cmpf .olt main_v14 main_v15
  fn_part1 (F := F) main_arg5 main_arg6 main_arg7 main_arg8 main_arg9 main_arg10 main_arg11 main_v13 main_v16
-- ==== Kernel.lean ====
abbrev S50000x256 : Shape := ⟨2, ![50000, 256]⟩
abbrev S3x131072 : Shape := ⟨2, ![3, 131072]⟩
abbrev S131072 : Shape := ⟨1, ![131072]⟩
abbrev S100 : Shape := ⟨1, ![100]⟩
abbrev S512x970 : Shape := ⟨2, ![512, 970]⟩
abbrev S512x512 : Shape := ⟨2, ![512, 512]⟩
abbrev S256x512 : Shape := ⟨2, ![256, 512]⟩
abbrev S1x131072 : Shape := ⟨2, ![1, 131072]⟩
abbrev S1x100 : Shape := ⟨2, ![1, 100]⟩
abbrev S131072x1 : Shape := ⟨2, ![131072, 1]⟩
abbrev S131072x100 : Shape := ⟨2, ![131072, 100]⟩
abbrev S_ : Shape := ⟨0, ![]⟩
abbrev S131072x256 : Shape := ⟨2, ![131072, 256]⟩
abbrev S131072x970 : Shape := ⟨2, ![131072, 970]⟩
abbrev S970x512 : Shape := ⟨2, ![970, 512]⟩
abbrev S512x256 : Shape := ⟨2, ![512, 256]⟩
abbrev S2048x970 : Shape := ⟨2, ![2048, 970]⟩
abbrev S2048x256 : Shape := ⟨2, ![2048, 256]⟩
abbrev S2048x512 : Shape := ⟨2, ![2048, 512]⟩

abbrev nBuf : Space → Nat
  | .hbm => 79
  | .vmem => 9
  | .smem => 0
  | _ => 0

abbrev bufTy : (tb : Table) → Fin (tcTables nBuf tb) → BufTy
  | .hbm, ⟨0, _⟩ => ⟨S50000x256, .f32⟩
  | .hbm, ⟨1, _⟩ => ⟨S3x131072, .i32⟩
  | .hbm, ⟨2, _⟩ => ⟨S131072, .f32⟩
  | .hbm, ⟨3, _⟩ => ⟨S131072, .f32⟩
  | .hbm, ⟨4, _⟩ => ⟨S131072, .f32⟩
  | .hbm, ⟨5, _⟩ => ⟨S131072, .f32⟩
  | .hbm, ⟨6, _⟩ => ⟨S100, .f32⟩
  | .hbm, ⟨7, _⟩ => ⟨S512x970, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S256x512, .f32⟩
  | .hbm, ⟨12, _⟩ => ⟨S1x131072, .i32⟩
  | .hbm, ⟨13, _⟩ => ⟨S131072, .i32⟩
  | .hbm, ⟨14, _⟩ => ⟨S1x131072, .i32⟩
  | .hbm, ⟨15, _⟩ => ⟨S131072, .i32⟩
  | .hbm, ⟨16, _⟩ => ⟨S1x131072, .i32⟩
  | .hbm, ⟨17, _⟩ => ⟨S131072, .i32⟩
  | .hbm, ⟨18, _⟩ => ⟨S1x100, .f32⟩
  | .hbm, ⟨19, _⟩ => ⟨S131072x1, .f32⟩
  | .hbm, ⟨20, _⟩ => ⟨S131072x100, .f32⟩
  | .hbm, ⟨21, _⟩ => ⟨S131072x100, .f32⟩
  | .hbm, ⟨22, _⟩ => ⟨S131072x100, .f32⟩
  | .hbm, ⟨23, _⟩ => ⟨S131072x100, .f32⟩
  | .hbm, ⟨24, _⟩ => ⟨S_, .f32⟩
  | .hbm, ⟨25, _⟩ => ⟨S131072x100, .f32⟩
  | .hbm, ⟨26, _⟩ => ⟨S131072x100, .f32⟩
  | .hbm, ⟨27, _⟩ => ⟨S131072x100, .f32⟩
  | .hbm, ⟨28, _⟩ => ⟨S1x100, .f32⟩
  | .hbm, ⟨29, _⟩ => ⟨S131072x1, .f32⟩
  | .hbm, ⟨30, _⟩ => ⟨S131072x100, .f32⟩
  | .hbm, ⟨31, _⟩ => ⟨S131072x100, .f32⟩
  | .hbm, ⟨32, _⟩ => ⟨S131072x100, .f32⟩
  | .hbm, ⟨33, _⟩ => ⟨S131072x100, .f32⟩
  | .hbm, ⟨34, _⟩ => ⟨S_, .f32⟩
  | .hbm, ⟨35, _⟩ => ⟨S131072x100, .f32⟩
  | .hbm, ⟨36, _⟩ => ⟨S131072x100, .f32⟩
  | .hbm, ⟨37, _⟩ => ⟨S131072x100, .f32⟩
  | .hbm, ⟨38, _⟩ => ⟨S_, .i32⟩
  | .hbm, ⟨39, _⟩ => ⟨S131072, .i32⟩
  | .hbm, ⟨40, _⟩ => ⟨S131072, .i1⟩
  | .hbm, ⟨41, _⟩ => ⟨S_, .i32⟩
  | .hbm, ⟨42, _⟩ => ⟨S131072, .i32⟩
  | .hbm, ⟨43, _⟩ => ⟨S131072, .i32⟩
  | .hbm, ⟨44, _⟩ => ⟨S131072, .i32⟩
  | .hbm, ⟨45, _⟩ => ⟨S131072x1, .i32⟩
  | .hbm, ⟨46, _⟩ => ⟨S131072x256, .f32⟩
  | .hbm, ⟨47, _⟩ => ⟨S_, .i32⟩
  | .hbm, ⟨48, _⟩ => ⟨S131072, .i32⟩
  | .hbm, ⟨49, _⟩ => ⟨S131072, .i1⟩
  | .hbm, ⟨50, _⟩ => ⟨S_, .i32⟩
  | .hbm, ⟨51, _⟩ => ⟨S131072, .i32⟩
  | .hbm, ⟨52, _⟩ => ⟨S131072, .i32⟩
  | .hbm, ⟨53, _⟩ => ⟨S131072, .i32⟩
  | .hbm, ⟨54, _⟩ => ⟨S131072x1, .i32⟩
  | .hbm, ⟨55, _⟩ => ⟨S131072x256, .f32⟩
  | .hbm, ⟨56, _⟩ => ⟨S_, .i32⟩
  | .hbm, ⟨57, _⟩ => ⟨S131072, .i32⟩
  | .hbm, ⟨58, _⟩ => ⟨S131072, .i1⟩
  | .hbm, ⟨59, _⟩ => ⟨S_, .i32⟩
  | .hbm, ⟨60, _⟩ => ⟨S131072, .i32⟩
  | .hbm, ⟨61, _⟩ => ⟨S131072, .i32⟩
  | .hbm, ⟨62, _⟩ => ⟨S131072, .i32⟩
  | .hbm, ⟨63, _⟩ => ⟨S131072x1, .i32⟩
  | .hbm, ⟨64, _⟩ => ⟨S131072x256, .f32⟩
  | .hbm, ⟨65, _⟩ => ⟨S131072x1, .f32⟩
  | .hbm, ⟨66, _⟩ => ⟨S131072x1, .f32⟩
  | .hbm, ⟨67, _⟩ => ⟨S131072x970, .f32⟩
  | .hbm, ⟨68, _⟩ => ⟨S970x512, .f32⟩
  | .hbm, ⟨69, _⟩ => ⟨S970x512, .bf16⟩
  | .hbm, ⟨70, _⟩ => ⟨S512x512, .f32⟩
  | .hbm, ⟨71, _⟩ => ⟨S512x512, .bf16⟩
  | .hbm, ⟨72, _⟩ => ⟨S512x512, .f32⟩
  | .hbm, ⟨73, _⟩ => ⟨S512x512, .bf16⟩
  | .hbm, ⟨74, _⟩ => ⟨S512x512, .f32⟩
  | .hbm, ⟨75, _⟩ => ⟨S512x512, .bf16⟩
  | .hbm, ⟨76, _⟩ => ⟨S512x256, .f32⟩
  | .hbm, ⟨77, _⟩ => ⟨S512x256, .bf16⟩
  | .hbm, ⟨78, _⟩ => ⟨S131072x256, .f32⟩
  | .local _ .vmem, ⟨0, _⟩ => ⟨S2048x970, .f32⟩
  | .local _ .vmem, ⟨1, _⟩ => ⟨S2048x970, .f32⟩
  | .local _ .vmem, ⟨2, _⟩ => ⟨S970x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S2048x256, .f32⟩
  | .local _ .vmem, ⟨8, _⟩ => ⟨S2048x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c : Ref sig .tc := ⟨.hbm, 38, rfl⟩
abbrev main_v24 : Ref sig .tc := ⟨.hbm, 39, rfl⟩
abbrev main_v25 : Ref sig .tc := ⟨.hbm, 40, rfl⟩
abbrev main_c_1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_2 : Ref sig .tc := ⟨.hbm, 47, rfl⟩
abbrev main_v31 : Ref sig .tc := ⟨.hbm, 48, rfl⟩
abbrev main_v32 : Ref sig .tc := ⟨.hbm, 49, rfl⟩
abbrev main_c_3 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_4 : Ref sig .tc := ⟨.hbm, 56, rfl⟩
abbrev main_v38 : Ref sig .tc := ⟨.hbm, 57, rfl⟩
abbrev main_v39 : Ref sig .tc := ⟨.hbm, 58, rfl⟩
abbrev main_c_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x970 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S970x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S3x131072_S1x131072_0_0 : S3x131072.Slices ![0, 0] S1x131072
  shapeCasts_S1x131072_S131072 : S1x131072.ShapeCasts S131072
  slices_S3x131072_S1x131072_1_0 : S3x131072.Slices ![1, 0] S1x131072
  slices_S3x131072_S1x131072_2_0 : S3x131072.Slices ![2, 0] S1x131072
  bcast_S100_S1x100_1 : S100.BroadcastsInDim S1x100 (![1] : Fin 1 → Fin S1x100.rank)
  bcast_S131072_S131072x1_0 : S131072.BroadcastsInDim S131072x1 (![0] : Fin 1 → Fin S131072x1.rank)
  bcast_S1x100_S131072x100_0_1 : S1x100.BroadcastsInDim S131072x100 (![0, 1] : Fin 2 → Fin S131072x100.rank)
  bcast_S131072x1_S131072x100_0_1 : S131072x1.BroadcastsInDim S131072x100 (![0, 1] : Fin 2 → Fin S131072x100.rank)
  bcast_S_S131072x100 : S_.BroadcastsInDim S131072x100 (![] : Fin 0 → Fin S131072x100.rank)
  bcast_S_S131072 : S_.BroadcastsInDim S131072 (![] : Fin 0 → Fin S131072.rank)
  concatenates_S131072x256_S131072x256_S131072x256_S131072x100_S131072x100_S131072x1_S131072x1_S131072x970_d1 : Shape.Concatenates [S131072x256, S131072x256, S131072x256, S131072x100, S131072x100, S131072x1, S131072x1] S131072x970 1
  transposes_S512x970_S970x512_1_0 : S512x970.Transposes [1, 0] S970x512
  bitsLt_bf16_f32 : FTy.bits .bf16 < FTy.bits .f32
  transposes_S512x512_S512x512_1_0 : S512x512.Transposes [1, 0] S512x512
  transposes_S256x512_S512x256_1_0 : S256x512.Transposes [1, 0] S512x256
  inb_S2048x970_S2048x970_0_0 : ∀ a, (![0, 0] : Fin 2 → Nat) a + S2048x970.size a ≤ S2048x970.size a
  h_S2048x970 : 0 < S2048x970.numel
  shapeCasts_S2048x970_S2048x970 : S2048x970.ShapeCasts S2048x970
  inb_S970x512_S970x512_0_0 : ∀ a, (![0, 0] : Fin 2 → Nat) a + S970x512.size a ≤ S970x512.size a
  h_S970x512 : 0 < S970x512.numel
  shapeCasts_S970x512_S970x512 : S970x512.ShapeCasts S970x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2048x256_S2048x256_0_0 : ∀ a, (![0, 0] : Fin 2 → Nat) a + S2048x256.size a ≤ S2048x256.size a
  h_S2048x256 : 0 < S2048x256.numel
  gather_S50000x256_S131072x1_S131072x256_1_0_n_n_0_1_1256_wf : GatherDims.WF S50000x256 S131072x1 S131072x256 [1] [0] [] [0] [] 1 ![1, 256]
  dot_S2048x970_S970x512_S2048x512_1_0_0_1_n_n_wf : DotDims.WF S2048x970 S970x512 S2048x512 [1] [0] [0] [1] [] []
  dot_S2048x512_S512x512_S2048x512_1_0_0_1_n_n_wf : DotDims.WF S2048x512 S512x512 S2048x512 [1] [0] [0] [1] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x970.size a ≤ S131072x970.size a
  hwx0_0 : ∀ i : grid0.Coords, EltTy.bits .f32 = 32 ∨ (Rect.block (s := S131072x970) S2048x970.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S970x512.size a ≤ S970x512.size a
  hwx0_1 : ∀ i : grid0.Coords, EltTy.bits .bf16 = 32 ∨ (Rect.block (s := S970x512) S970x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .bf16 = 32 ∨ (Rect.block (s := S512x256) S512x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S131072x256.size a
  hwx0_6 : ∀ i : grid0.Coords, EltTy.bits .f32 = 32 ∨ (Rect.block (s := S131072x256) S2048x256.size (cc0_transform_6 i) (hinb0_6 i)).WholeWords (EltTy.packing .f32)

variable [Facts₀]

def gather_S50000x256_S131072x1_S131072x256_1_0_n_n_0_1_1256 : GatherDims S50000x256 S131072x1 S131072x256 where
  offsetDims := [1]
  collapsedSliceDims := [0]
  operandBatchingDims := []
  startIndicesBatchingDims := []
  startIndexMap := [0]
  indexVectorDim := 1
  sliceSizes := ![1, 256]
  wf := gather_S50000x256_S131072x1_S131072x256_1_0_n_n_0_1_1256_wf
def dot_S2048x970_S970x512_S2048x512_1_0_0_1_n_n : DotDims S2048x970 S970x512 S2048x512 where
  lhsContracting := [1]
  rhsContracting := [0]
  lhsNonContracting := [0]
  rhsNonContracting := [1]
  lhsBatch := []
  rhsBatch := []
  wf := dot_S2048x970_S970x512_S2048x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_v47) S2048x970.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v49) S970x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v51) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v53) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v55) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v57) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v58) S2048x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x256 : Shape := ⟨2, ![50000, 256]⟩
abbrev S3x131072 : Shape := ⟨2, ![3, 131072]⟩
abbrev S131072 : Shape := ⟨1, ![131072]⟩
abbrev S100 : Shape := ⟨1, ![100]⟩
abbrev S512x970 : Shape := ⟨2, ![512, 970]⟩
abbrev S512x512 : Shape := ⟨2, ![512, 512]⟩
abbrev S256x512 : Shape := ⟨2, ![256, 512]⟩
abbrev S1x131072 : Shape := ⟨2, ![1, 131072]⟩
abbrev S1x100 : Shape := ⟨2, ![1, 100]⟩
abbrev S131072x1 : Shape := ⟨2, ![131072, 1]⟩
abbrev S131072x100 : Shape := ⟨2, ![131072, 100]⟩
abbrev S_ : Shape := ⟨0, ![]⟩
abbrev S131072x256 : Shape := ⟨2, ![131072, 256]⟩
abbrev S131072x970 : Shape := ⟨2, ![131072, 970]⟩
abbrev S970x512 : Shape := ⟨2, ![970, 512]⟩
abbrev S131072x512 : Shape := ⟨2, ![131072, 512]⟩
abbrev S512x256 : Shape := ⟨2, ![512, 256]⟩

abbrev nBuf : Space → Nat
  | .hbm => 114
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S3x131072, .i32⟩
  | .hbm, ⟨2, _⟩ => ⟨S131072, .f32⟩
  | .hbm, ⟨3, _⟩ => ⟨S131072, .f32⟩
  | .hbm, ⟨4, _⟩ => ⟨S131072, .f32⟩
  | .hbm, ⟨5, _⟩ => ⟨S131072, .f32⟩
  | .hbm, ⟨6, _⟩ => ⟨S100, .f32⟩
  | .hbm, ⟨7, _⟩ => ⟨S512x970, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S256x512, .f32⟩
  | .hbm, ⟨12, _⟩ => ⟨S1x131072, .i32⟩
  | .hbm, ⟨13, _⟩ => ⟨S131072, .i32⟩
  | .hbm, ⟨14, _⟩ => ⟨S1x131072, .i32⟩
  | .hbm, ⟨15, _⟩ => ⟨S131072, .i32⟩
  | .hbm, ⟨16, _⟩ => ⟨S1x131072, .i32⟩
  | .hbm, ⟨17, _⟩ => ⟨S131072, .i32⟩
  | .hbm, ⟨18, _⟩ => ⟨S1x100, .f32⟩
  | .hbm, ⟨19, _⟩ => ⟨S131072x1, .f32⟩
  | .hbm, ⟨20, _⟩ => ⟨S131072x100, .f32⟩
  | .hbm, ⟨21, _⟩ => ⟨S131072x100, .f32⟩
  | .hbm, ⟨22, _⟩ => ⟨S131072x100, .f32⟩
  | .hbm, ⟨23, _⟩ => ⟨S131072x100, .f32⟩
  | .hbm, ⟨24, _⟩ => ⟨S_, .f32⟩
  | .hbm, ⟨25, _⟩ => ⟨S131072x100, .f32⟩
  | .hbm, ⟨26, _⟩ => ⟨S131072x100, .f32⟩
  | .hbm, ⟨27, _⟩ => ⟨S131072x100, .f32⟩
  | .hbm, ⟨28, _⟩ => ⟨S1x100, .f32⟩
  | .hbm, ⟨29, _⟩ => ⟨S131072x1, .f32⟩
  | .hbm, ⟨30, _⟩ => ⟨S131072x100, .f32⟩
  | .hbm, ⟨31, _⟩ => ⟨S131072x100, .f32⟩
  | .hbm, ⟨32, _⟩ => ⟨S131072x100, .f32⟩
  | .hbm, ⟨33, _⟩ => ⟨S131072x100, .f32⟩
  | .hbm, ⟨34, _⟩ => ⟨S_, .f32⟩
  | .hbm, ⟨35, _⟩ => ⟨S131072x100, .f32⟩
  | .hbm, ⟨36, _⟩ => ⟨S131072x100, .f32⟩
  | .hbm, ⟨37, _⟩ => ⟨S131072x100, .f32⟩
  | .hbm, ⟨38, _⟩ => ⟨S_, .i32⟩
  | .hbm, ⟨39, _⟩ => ⟨S131072, .i32⟩
  | .hbm, ⟨40, _⟩ => ⟨S131072, .i1⟩
  | .hbm, ⟨41, _⟩ => ⟨S_, .i32⟩
  | .hbm, ⟨42, _⟩ => ⟨S131072, .i32⟩
  | .hbm, ⟨43, _⟩ => ⟨S131072, .i32⟩
  | .hbm, ⟨44, _⟩ => ⟨S131072, .i32⟩
  | .hbm, ⟨45, _⟩ => ⟨S131072x1, .i32⟩
  | .hbm, ⟨46, _⟩ => ⟨S131072x256, .f32⟩
  | .hbm, ⟨47, _⟩ => ⟨S_, .i32⟩
  | .hbm, ⟨48, _⟩ => ⟨S131072, .i32⟩
  | .hbm, ⟨49, _⟩ => ⟨S131072, .i1⟩
  | .hbm, ⟨50, _⟩ => ⟨S_, .i32⟩
  | .hbm, ⟨51, _⟩ => ⟨S131072, .i32⟩
  | .hbm, ⟨52, _⟩ => ⟨S131072, .i32⟩
  | .hbm, ⟨53, _⟩ => ⟨S131072, .i32⟩
  | .hbm, ⟨54, _⟩ => ⟨S131072x1, .i32⟩
  | .hbm, ⟨55, _⟩ => ⟨S131072x256, .f32⟩
  | .hbm, ⟨56, _⟩ => ⟨S_, .i32⟩
  | .hbm, ⟨57, _⟩ => ⟨S131072, .i32⟩
  | .hbm, ⟨58, _⟩ => ⟨S131072, .i1⟩
  | .hbm, ⟨59, _⟩ => ⟨S_, .i32⟩
  | .hbm, ⟨60, _⟩ => ⟨S131072, .i32⟩
  | .hbm, ⟨61, _⟩ => ⟨S131072, .i32⟩
  | .hbm, ⟨62, _⟩ => ⟨S131072, .i32⟩
  | .hbm, ⟨63, _⟩ => ⟨S131072x1, .i32⟩
  | .hbm, ⟨64, _⟩ => ⟨S131072x256, .f32⟩
  | .hbm, ⟨65, _⟩ => ⟨S131072x1, .f32⟩
  | .hbm, ⟨66, _⟩ => ⟨S131072x1, .f32⟩
  | .hbm, ⟨67, _⟩ => ⟨S131072x970, .f32⟩
  | .hbm, ⟨68, _⟩ => ⟨S970x512, .f32⟩
  | .hbm, ⟨69, _⟩ => ⟨S131072x512, .f32⟩
  | .hbm, ⟨70, _⟩ => ⟨S131072x512, .f32⟩
  | .hbm, ⟨71, _⟩ => ⟨S131072x512, .f32⟩
  | .hbm, ⟨72, _⟩ => ⟨S_, .f32⟩
  | .hbm, ⟨73, _⟩ => ⟨S131072x512, .f32⟩
  | .hbm, ⟨74, _⟩ => ⟨S131072x512, .f32⟩
  | .hbm, ⟨75, _⟩ => ⟨S_, .f32⟩
  | .hbm, ⟨76, _⟩ => ⟨S131072x512, .f32⟩
  | .hbm, ⟨77, _⟩ => ⟨S131072x512, .f32⟩
  | .hbm, ⟨78, _⟩ => ⟨S131072x512, .f32⟩
  | .hbm, ⟨79, _⟩ => ⟨S512x512, .f32⟩
  | .hbm, ⟨80, _⟩ => ⟨S131072x512, .f32⟩
  | .hbm, ⟨81, _⟩ => ⟨S131072x512, .f32⟩
  | .hbm, ⟨82, _⟩ => ⟨S131072x512, .f32⟩
  | .hbm, ⟨83, _⟩ => ⟨S_, .f32⟩
  | .hbm, ⟨84, _⟩ => ⟨S131072x512, .f32⟩
  | .hbm, ⟨85, _⟩ => ⟨S131072x512, .f32⟩
  | .hbm, ⟨86, _⟩ => ⟨S_, .f32⟩
  | .hbm, ⟨87, _⟩ => ⟨S131072x512, .f32⟩
  | .hbm, ⟨88, _⟩ => ⟨S131072x512, .f32⟩
  | .hbm, ⟨89, _⟩ => ⟨S131072x512, .f32⟩
  | .hbm, ⟨90, _⟩ => ⟨S512x512, .f32⟩
  | .hbm, ⟨91, _⟩ => ⟨S131072x512, .f32⟩
  | .hbm, ⟨92, _⟩ => ⟨S131072x512, .f32⟩
  | .hbm, ⟨93, _⟩ => ⟨S131072x512, .f32⟩
  | .hbm, ⟨94, _⟩ => ⟨S_, .f32⟩
  | .hbm, ⟨95, _⟩ => ⟨S131072x512, .f32⟩
  | .hbm, ⟨96, _⟩ => ⟨S131072x512, .f32⟩
  | .hbm, ⟨97, _⟩ => ⟨S_, .f32⟩
  | .hbm, ⟨98, _⟩ => ⟨S131072x512, .f32⟩
  | .hbm, ⟨99, _⟩ => ⟨S131072x512, .f32⟩
  | .hbm, ⟨100, _⟩ => ⟨S131072x512, .f32⟩
  | .hbm, ⟨101, _⟩ => ⟨S512x512, .f32⟩
  | .hbm, ⟨102, _⟩ => ⟨S131072x512, .f32⟩
  | .hbm, ⟨103, _⟩ => ⟨S131072x512, .f32⟩
  | .hbm, ⟨104, _⟩ => ⟨S131072x512, .f32⟩
  | .hbm, ⟨105, _⟩ => ⟨S_, .f32⟩
  | .hbm, ⟨106, _⟩ => ⟨S131072x512, .f32⟩
  | .hbm, ⟨107, _⟩ => ⟨S131072x512, .f32⟩
  | .hbm, ⟨108, _⟩ => ⟨S_, .f32⟩
  | .hbm, ⟨109, _⟩ => ⟨S131072x512, .f32⟩
  | .hbm, ⟨110, _⟩ => ⟨S131072x512, .f32⟩
  | .hbm, ⟨111, _⟩ => ⟨S131072x512, .f32⟩
  | .hbm, ⟨112, _⟩ => ⟨S512x256, .f32⟩
  | .hbm, ⟨113, _⟩ => ⟨S131072x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c : Ref sig .tc := ⟨.hbm, 38, rfl⟩
abbrev main_v24 : Ref sig .tc := ⟨.hbm, 39, rfl⟩
abbrev main_v25 : Ref sig .tc := ⟨.hbm, 40, rfl⟩
abbrev main_c_1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_2 : Ref sig .tc := ⟨.hbm, 47, rfl⟩
abbrev main_v31 : Ref sig .tc := ⟨.hbm, 48, rfl⟩
abbrev main_v32 : Ref sig .tc := ⟨.hbm, 49, rfl⟩
abbrev main_c_3 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_4 : Ref sig .tc := ⟨.hbm, 56, rfl⟩
abbrev main_v38 : Ref sig .tc := ⟨.hbm, 57, rfl⟩
abbrev main_v39 : Ref sig .tc := ⟨.hbm, 58, rfl⟩
abbrev main_c_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call0_v0 : Ref sig .tc := ⟨.hbm, 70, rfl⟩
abbrev main_call0_v1 : Ref sig .tc := ⟨.hbm, 71, rfl⟩
abbrev main_call0_cst : Ref sig .tc := ⟨.hbm, 72, rfl⟩
abbrev main_call0_v2 : Ref sig .tc := ⟨.hbm, 73, rfl⟩
abbrev main_call0_v3 : Ref sig .tc := ⟨.hbm, 74, rfl⟩
abbrev main_call0_cst_0 : Ref sig .tc := ⟨.hbm, 75, rfl⟩
abbrev main_call0_v4 : Ref sig .tc := ⟨.hbm, 76, rfl⟩
abbrev main_call0_v5 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call1_v0 : Ref sig .tc := ⟨.hbm, 81, rfl⟩
abbrev main_call1_v1 : Ref sig .tc := ⟨.hbm, 82, rfl⟩
abbrev main_call1_cst : Ref sig .tc := ⟨.hbm, 83, rfl⟩
abbrev main_call1_v2 : Ref sig .tc := ⟨.hbm, 84, rfl⟩
abbrev main_call1_v3 : Ref sig .tc := ⟨.hbm, 85, rfl⟩
abbrev main_call1_cst_0 : Ref sig .tc := ⟨.hbm, 86, rfl⟩
abbrev main_call1_v4 : Ref sig .tc := ⟨.hbm, 87, rfl⟩
abbrev main_call1_v5 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_call2_v0 : Ref sig .tc := ⟨.hbm, 92, rfl⟩
abbrev main_call2_v1 : Ref sig .tc := ⟨.hbm, 93, rfl⟩
abbrev main_call2_cst : Ref sig .tc := ⟨.hbm, 94, rfl⟩
abbrev main_call2_v2 : Ref sig .tc := ⟨.hbm, 95, rfl⟩
abbrev main_call2_v3 : Ref sig .tc := ⟨.hbm, 96, rfl⟩
abbrev main_call2_cst_0 : Ref sig .tc := ⟨.hbm, 97, rfl⟩
abbrev main_call2_v4 : Ref sig .tc := ⟨.hbm, 98, rfl⟩
abbrev main_call2_v5 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_call3_v0 : Ref sig .tc := ⟨.hbm, 103, rfl⟩
abbrev main_call3_v1 : Ref sig .tc := ⟨.hbm, 104, rfl⟩
abbrev main_call3_cst : Ref sig .tc := ⟨.hbm, 105, rfl⟩
abbrev main_call3_v2 : Ref sig .tc := ⟨.hbm, 106, rfl⟩
abbrev main_call3_v3 : Ref sig .tc := ⟨.hbm, 107, rfl⟩
abbrev main_call3_cst_0 : Ref sig .tc := ⟨.hbm, 108, rfl⟩
abbrev main_call3_v4 : Ref sig .tc := ⟨.hbm, 109, rfl⟩
abbrev main_call3_v5 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩

abbrev nD : Nat := 1
abbrev τ : Topo := Topo.v7x

variable {F : FTy → Type} [FloatOps F]

class Facts₀ : Prop where
  slices_S3x131072_S1x131072_0_0 : S3x131072.Slices ![0, 0] S1x131072
  shapeCasts_S1x131072_S131072 : S1x131072.ShapeCasts S131072
  slices_S3x131072_S1x131072_1_0 : S3x131072.Slices ![1, 0] S1x131072
  slices_S3x131072_S1x131072_2_0 : S3x131072.Slices ![2, 0] S1x131072
  bcast_S100_S1x100_1 : S100.BroadcastsInDim S1x100 (![1] : Fin 1 → Fin S1x100.rank)
  bcast_S131072_S131072x1_0 : S131072.BroadcastsInDim S131072x1 (![0] : Fin 1 → Fin S131072x1.rank)
  bcast_S1x100_S131072x100_0_1 : S1x100.BroadcastsInDim S131072x100 (![0, 1] : Fin 2 → Fin S131072x100.rank)
  bcast_S131072x1_S131072x100_0_1 : S131072x1.BroadcastsInDim S131072x100 (![0, 1] : Fin 2 → Fin S131072x100.rank)
  bcast_S_S131072x100 : S_.BroadcastsInDim S131072x100 (![] : Fin 0 → Fin S131072x100.rank)
  bcast_S_S131072 : S_.BroadcastsInDim S131072 (![] : Fin 0 → Fin S131072.rank)
  concatenates_S131072x256_S131072x256_S131072x256_S131072x100_S131072x100_S131072x1_S131072x1_S131072x970_d1 : Shape.Concatenates [S131072x256, S131072x256, S131072x256, S131072x100, S131072x100, S131072x1, S131072x1] S131072x970 1
  transposes_S512x970_S970x512_1_0 : S512x970.Transposes [1, 0] S970x512
  bcast_S_S131072x512 : S_.BroadcastsInDim S131072x512 (![] : Fin 0 → Fin S131072x512.rank)
  transposes_S512x512_S512x512_1_0 : S512x512.Transposes [1, 0] S512x512
  transposes_S256x512_S512x256_1_0 : S256x512.Transposes [1, 0] S512x256
  gather_S50000x256_S131072x1_S131072x256_1_0_n_n_0_1_1256_wf : GatherDims.WF S50000x256 S131072x1 S131072x256 [1] [0] [] [0] [] 1 ![1, 256]
  dot_S131072x970_S970x512_S131072x512_1_0_0_1_n_n_wf : DotDims.WF S131072x970 S970x512 S131072x512 [1] [0] [0] [1] [] []
  dot_S131072x512_S512x512_S131072x512_1_0_0_1_n_n_wf : DotDims.WF S131072x512 S512x512 S131072x512 [1] [0] [0] [1] [] []
  dot_S131072x512_S512x256_S131072x256_1_0_0_1_n_n_wf : DotDims.WF S131072x512 S512x256 S131072x256 [1] [0] [0] [1] [] []

variable [Facts₀]

def gather_S50000x256_S131072x1_S131072x256_1_0_n_n_0_1_1256 : GatherDims S50000x256 S131072x1 S131072x256 where
  offsetDims := [1]
  collapsedSliceDims := [0]
  operandBatchingDims := []
  startIndicesBatchingDims := []
  startIndexMap := [0]
  indexVectorDim := 1
  sliceSizes := ![1, 256]
  wf := gather_S50000x256_S131072x1_S131072x256_1_0_n_n_0_1_1256_wf
def dot_S131072x970_S970x512_S131072x512_1_0_0_1_n_n : DotDims S131072x970 S970x512 S131072x512 where
  lhsContracting := [1]
  rhsContracting := [0]
  lhsNonContracting := [0]
  rhsNonContracting := [1]
  lhsBatch := []
  rhsBatch := []
  wf := dot_S131072x970_S970x512_S131072x512_1_0_0_1_n_n_wf
def dot_S131072x512_S512x512_S131072x512_1_0_0_1_n_n : DotDims S131072x512 S512x512 S131072x512 where
  lhsContracting := [1]
  rhsContracting := [0]
  lhsNonContracting := [0]
  rhsNonContracting := [1]
  lhsBatch := []
  rhsBatch := []
  wf := dot_S131072x512_S512x512_S131072x512_1_0_0_1_n_n_wf
def dot_S131072x512_S512x256_S131072x256_1_0_0_1_n_n : DotDims S131072x512 S512x256 S131072x256 where
  lhsContracting := [1]
  rhsContracting := [0]
  lhsNonContracting := [0]
  rhsNonContracting := [1]
  lhsBatch := []
  rhsBatch := []
  wf := dot_S131072x512_S512x256_S131072x256_1_0_0_1_n_n_wf

class Facts : Prop extends Facts₀ where

variable [Facts]
-- ==== Proof.BitsRegion.lean ====
/-
  The program up to its one region, and what the region finds.

  @main is a stretch of sixty-six host operations followed by the launch of one pipeline over a grid of 64 points.
  Each host operation writes only its own result buffer, and no result buffer is an argument: the twelve argument
  arrays reach the region, and leave it, as launched.  The seven windows of the pipeline stage arrays the host
  stretch computed — the [131072, 970] feature matrix, the five transposed weight matrices — and the result array;
  a window's block at a grid point is read here off the buffer contents after the host stretch.  An input window's
  staging buffer holds that block at every point, whether the pipeline fetched it there or kept it from the point
  before (the weight windows' index never moves).
-/
import proofs.«160854_j67783173865692_1_alg».proof.Proof.Gen.Kernel.Launch
import proofs.«160854_j67783173865692_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers when the region is entered -/

/-- Core `c`'s buffer contents when the region is entered: the launch contents after the host stretch. -/
abbrev entry (c : Dev nD) (b : Ref sig .tc) : Buf (Elt F) ((c : Thread nD τ).loc b) := StableHlo.after hostOps0 (fun b => m (c, b)) b

/-- No host operation allocates a buffer. -/
theorem hostOps_alloc_nothing : (hostOps0 : List (HloOp τ sig (Elt F))).Forall fun op => op.fresh = ∅ := by
  simp only [List.Forall]; repeat' constructor

/-- @main is the host stretch followed by the region. -/
theorem main_to_region (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps_alloc_nothing main_chain

/-- The buffers the host stretch writes: each operation's own result, in program order. -/
abbrev written : List (Ref sig .tc) :=
  [main_v0, main_v1, main_v2, main_v3, main_v4, main_v5, main_v6, main_v7, main_v8, main_v9, main_v10, main_v11, main_cst, main_v12, main_v13, main_v14, main_v15, main_v16, main_v17, main_v18, main_v19, main_v20, main_cst_0, main_v21, main_v22, main_v23, main_c, main_v24, main_v25, main_c_1, main_v26, main_v27, main_v28, main_v29, main_v30, main_c_2, main_v31, main_v32, main_c_3, main_v33, main_v34, main_v35, main_v36, main_v37, main_c_4, main_v38, main_v39, main_c_5, main_v40, main_v41, main_v42, main_v43, main_v44, main_v45, main_v46, main_v47, main_v48, main_v49, main_v50, main_v51, main_v52, main_v53, main_v54, main_v55, main_v56, main_v57]

/-- Every write of the host stretch is into one of them. -/
theorem written_sub : (hostOps0 : List (HloOp τ sig (Elt F))).Forall fun op => op.writes ⊆ (written.map (Proc.devRef (τ := τ) .tc)).toFinset := by
  simp only [hostOps0, List.Forall, StableHlo.nullary_writes, StableHlo.unary_writes, StableHlo.binary_writes, StableHlo.ternary_writes,
    StableHlo.reshape_writes, StableHlo.nary_writes, Finset.singleton_subset_iff, List.mem_toFinset]
  repeat' apply And.intro
  all_goals exact List.mem_map.mpr ⟨_, by decide, rfl⟩

/-- No argument array is among them: the region finds each argument as launched. -/
theorem entry_arg0 (c : Dev nD) : entry m c main_arg0 = m ((c : Thread nD τ).loc main_arg0) :=
  StableHlo.after_of_writes_sub hostOps0 _ written_sub (by decide)
theorem entry_arg1 (c : Dev nD) : entry m c main_arg1 = m ((c : Thread nD τ).loc main_arg1) :=
  StableHlo.after_of_writes_sub hostOps0 _ written_sub (by decide)
theorem entry_arg2 (c : Dev nD) : entry m c main_arg2 = m ((c : Thread nD τ).loc main_arg2) :=
  StableHlo.after_of_writes_sub hostOps0 _ written_sub (by decide)
theorem entry_arg3 (c : Dev nD) : entry m c main_arg3 = m ((c : Thread nD τ).loc main_arg3) :=
  StableHlo.after_of_writes_sub hostOps0 _ written_sub (by decide)
theorem entry_arg4 (c : Dev nD) : entry m c main_arg4 = m ((c : Thread nD τ).loc main_arg4) :=
  StableHlo.after_of_writes_sub hostOps0 _ written_sub (by decide)
theorem entry_arg5 (c : Dev nD) : entry m c main_arg5 = m ((c : Thread nD τ).loc main_arg5) :=
  StableHlo.after_of_writes_sub hostOps0 _ written_sub (by decide)
theorem entry_arg6 (c : Dev nD) : entry m c main_arg6 = m ((c : Thread nD τ).loc main_arg6) :=
  StableHlo.after_of_writes_sub hostOps0 _ written_sub (by decide)
theorem entry_arg7 (c : Dev nD) : entry m c main_arg7 = m ((c : Thread nD τ).loc main_arg7) :=
  StableHlo.after_of_writes_sub hostOps0 _ written_sub (by decide)
theorem entry_arg8 (c : Dev nD) : entry m c main_arg8 = m ((c : Thread nD τ).loc main_arg8) :=
  StableHlo.after_of_writes_sub hostOps0 _ written_sub (by decide)
theorem entry_arg9 (c : Dev nD) : entry m c main_arg9 = m ((c : Thread nD τ).loc main_arg9) :=
  StableHlo.after_of_writes_sub hostOps0 _ written_sub (by decide)
theorem entry_arg10 (c : Dev nD) : entry m c main_arg10 = m ((c : Thread nD τ).loc main_arg10) :=
  StableHlo.after_of_writes_sub hostOps0 _ written_sub (by decide)
theorem entry_arg11 (c : Dev nD) : entry m c main_arg11 = m ((c : Thread nD τ).loc main_arg11) :=
  StableHlo.after_of_writes_sub hostOps0 _ written_sub (by decide)

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's staging buffer holds the window's block at every point, for any proof data over the entry
    contents whose body leaves that buffer as it found it. -/
theorem held_0 {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held_1 {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held_2 {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held_3 {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held_4 {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem held_5 {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## The arguments at the end of a run -/

/-- A run that ends with every buffer no window stages at its entry contents ends with the twelve arguments as
    launched: no window stages an argument. -/
theorem args_kept_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (entry_arg0 m c),
      ((h c).2 main_arg1 (Pipeline.mem_restRefs_of main_arg1 (by decide) (by decide))).trans (entry_arg1 m c),
      ((h c).2 main_arg2 (Pipeline.mem_restRefs_of main_arg2 (by decide) (by decide))).trans (entry_arg2 m c),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c)⟩) h

end Cert.Kernel.Region

end
-- ==== Proof.BitsBody.lean ====
/-
  One grid point of the kernel, and the whole run.

  At a grid point the body loads its six input blocks whole — a [2048, 970] block of feature rows and the five
  weight matrices —, computes, and stores one [2048, 256] block that covers the output window's staging buffer.  So
  after the body that buffer holds the stored value, a function of the six input blocks alone, and the input buffers
  hold what they held.  With the region's invariant passing through untouched this is the body's obligation at every
  point, and the launch theorem turns it into a run of @main: it terminates without a fault, every array a window
  stages ends at what the blocks written back make of it, and every other buffer — the twelve arguments among them —
  ends as the region found it.
-/
import proofs.«160854_j67783173865692_1_alg».proof.Proof.BitsRegion
import proofs.«160854_j67783173865692_1_alg».proof.Proof.Gen.Kernel.Skeleton

set_option maxRecDepth 16384

noncomputable section

namespace Cert.Kernel.Region

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body stores -/

/-- The body reads each input block whole and stores one whole output block. -/
abbrev allX : Rect S2048x970 := Rect.unit (s := S2048x970) ![0, 0] S2048x970.size inb_S2048x970_S2048x970_0_0
abbrev allW0 : Rect S970x512 := Rect.unit (s := S970x512) ![0, 0] S970x512.size inb_S970x512_S970x512_0_0
abbrev allW : Rect S512x512 := Rect.unit (s := S512x512) ![0, 0] S512x512.size inb_S512x512_S512x512_0_0
abbrev allW4 : Rect S512x256 := Rect.unit (s := S512x256) ![0, 0] S512x256.size inb_S512x256_S512x256_0_0
abbrev allOut : Rect S2048x256 := Rect.unit (s := S2048x256) ![0, 0] S2048x256.size inb_S2048x256_S2048x256_0_0

/-- The output window's staging buffer after the body, from the six input blocks: the one stored value. -/
def stored (x : Vec F S2048x970 .f32) (w0 : Vec F S970x512 .bf16) (w1 : Vec F S512x512 .bf16) (w2 : Vec F S512x512 .bf16) (w3 : Vec F S512x512 .bf16) (w4 : Vec F S512x256 .bf16) : Vec F S2048x256 .f32 :=
  View.canon [⟨allOut, k0_pay1 (View.ld x allX) (View.ld w0 allW0) (View.ld w1 allW) (View.ld w2 allW) (View.ld w3 allW) (View.ld w4 allW4)⟩]

/-- The one store covers the buffer. -/
theorem stored_covers (p0 : Vec F S2048x256 .f32) (y : S2048x256.Idx) :
    ∃ pc ∈ ([⟨allOut, p0⟩] : List (View.Piece (Elt F) S2048x256 .f32)), y ∈ pc.1.set :=
  View.cover_of_tiled [⟨allOut, p0⟩] S2048x256.size (by rfl) y

/-! ## The body's triple -/

set_option maxHeartbeats 1000000 in
/-- On whole staging buffers, the inputs' at given contents and the output's at anything, the body runs to a
    continuation that holds the inputs' as they were and the output's at `stored` of the inputs'. -/
theorem body_triple (c : Dev nD) (E : Set ℕ) (i : grid0.Coords) (arg1 : Memref sig .tc .vmem S2048x970 .f32) (harg1 : arg1.IsWhole) (arg2 : Memref sig .tc .vmem S970x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x256 .bf16) (harg6 : arg6.IsWhole) (arg7 : Memref sig .tc .vmem S2048x256 .f32) (harg7 : arg7.IsWhole)
    (x : Vec F S2048x970 .f32) (w0 : Vec F S970x512 .bf16) (w1 : Vec F S512x512 .bf16) (w2 : Vec F S512x512 .bf16) (w3 : Vec F S512x512 .bf16) (w4 : Vec F S512x256 .bf16) (K : PUnit → sProp 𝕄) :
    iprop(owns (c : Thread nD τ) arg1 fullShare x ∗ owns (c : Thread nD τ) arg2 fullShare w0 ∗ owns (c : Thread nD τ) arg3 fullShare w1 ∗ owns (c : Thread nD τ) arg4 fullShare w2 ∗ owns (c : Thread nD τ) arg5 fullShare w3 ∗ owns (c : Thread nD τ) arg6 fullShare w4 ∗ (∃ d, owns (c : Thread nD τ) arg7 fullShare d)
        ∗ (iprop(owns (c : Thread nD τ) arg1 fullShare x ∗ owns (c : Thread nD τ) arg2 fullShare w0 ∗ owns (c : Thread nD τ) arg3 fullShare w1 ∗ owns (c : Thread nD τ) arg4 fullShare w2 ∗ owns (c : Thread nD τ) arg5 fullShare w3 ∗ owns (c : Thread nD τ) arg6 fullShare w4 ∗ owns (c : Thread nD τ) arg7 fullShare (stored x w0 w1 w2 w3 w4)) -∗ K ⟨⟩))
      ⊢ wp frame (wpE (defs₀ (F := F)) Variants.none c none) E (cc0__mlp_kernel i arg1 harg1 arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (stored_covers _)

/-! ## The pipeline's proof data -/

/-- On core `c`: the arrays as the region finds them; after the body at point `t` each input's buffer at its
    block and the output's at `stored` of the six input blocks; the region's invariant unchanged; nothing owed. -/
def data (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => stored (blockAt m c 0 t) (blockAt m c 1 t) (blockAt m c 2 t) (blockAt m c 3 t) (blockAt m c 4 t) (blockAt m c 5 t)
  Φ _ := Pipeline.ΦA spec0 c
  q _ := fullShare
  owed _ := 0

theorem data_A (c : Dev nD) (w : Fin cfg0.W) : (data m 0 c).A w = entry m c (Pipeline.arrRef spec0 w) := by
  dsimp only [data]

theorem left_0 (c : Dev nD) (t : Fin cfg0.N) : (data m 0 c).after 0 t = blockAt m c 0 t := by dsimp only [data]
theorem left_1 (c : Dev nD) (t : Fin cfg0.N) : (data m 0 c).after 1 t = blockAt m c 1 t := by dsimp only [data]
theorem left_2 (c : Dev nD) (t : Fin cfg0.N) : (data m 0 c).after 2 t = blockAt m c 2 t := by dsimp only [data]
theorem left_3 (c : Dev nD) (t : Fin cfg0.N) : (data m 0 c).after 3 t = blockAt m c 3 t := by dsimp only [data]
theorem left_4 (c : Dev nD) (t : Fin cfg0.N) : (data m 0 c).after 4 t = blockAt m c 4 t := by dsimp only [data]
theorem left_5 (c : Dev nD) (t : Fin cfg0.N) : (data m 0 c).after 5 t = blockAt m c 5 t := by dsimp only [data]
theorem left_6 (c : Dev nD) (t : Fin cfg0.N) : (data m 0 c).after 6 t = stored (blockAt m c 0 t) (blockAt m c 1 t) (blockAt m c 2 t) (blockAt m c 3 t) (blockAt m c 4 t) (blockAt m c 5 t) := by dsimp only [data]

theorem found_0 (c : Dev nD) (t : Fin cfg0.N) (d) : (data m 0 c).before 0 t d = blockAt m c 0 t :=
  held_0 m (data m 0 c) (data_A m c 0) (left_0 m c) t d
theorem found_1 (c : Dev nD) (t : Fin cfg0.N) (d) : (data m 0 c).before 1 t d = blockAt m c 1 t :=
  held_1 m (data m 0 c) (data_A m c 1) (left_1 m c) t d
theorem found_2 (c : Dev nD) (t : Fin cfg0.N) (d) : (data m 0 c).before 2 t d = blockAt m c 2 t :=
  held_2 m (data m 0 c) (data_A m c 2) (left_2 m c) t d
theorem found_3 (c : Dev nD) (t : Fin cfg0.N) (d) : (data m 0 c).before 3 t d = blockAt m c 3 t :=
  held_3 m (data m 0 c) (data_A m c 3) (left_3 m c) t d
theorem found_4 (c : Dev nD) (t : Fin cfg0.N) (d) : (data m 0 c).before 4 t d = blockAt m c 4 t :=
  held_4 m (data m 0 c) (data_A m c 4) (left_4 m c) t d
theorem found_5 (c : Dev nD) (t : Fin cfg0.N) (d) : (data m 0 c).before 5 t d = blockAt m c 5 t :=
  held_5 m (data m 0 c) (data_A m c 5) (left_5 m c) t d

/-! ## The body's obligation at a grid point -/

/-- What the body is called with at point `t`, the windows one by one, -/
def pointPre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d)))

/-- and what it returns. -/
def pointPost (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t)
    ∗ owns (c : Thread nD τ) (st0_6 t) fullShare ((data m 0 c).after 6 t))

/-- At any point the input buffers hold their blocks, so the body's triple applies; the invariant passes through. -/
theorem point_triple (c : Dev nD) (t : Fin cfg0.N) :
    pointPre m c t ⊢ wp frame (wpE (defs₀ (F := F)) Variants.none c none) Set.univ (bodyAt0 t) (fun _ => pointPost m c t) := by
  unfold pointPre pointPost bodyAt0
  simp only [found_0, found_1, found_2, found_3, found_4, found_5]
  rw [show (data m 0 c).Φ t.succ = (data m 0 c).Φ t.castSucc from rfl,
    show (data m 0 c).owesAt () t.succ = (data m 0 c).owesAt () t.castSucc from rfl,
    left_0, left_1, left_2, left_3, left_4, left_5, left_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ (grid0.coords t) _ _ _ _ _ _ _ _ _ _ _ _ _ _ (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem every_point (c : Dev nD) : BodyObligation (data (F := F) m 0 c) (defs₀ (F := F)) Variants.none () Set.univ := fun t => by
  rw [bigSep_W0, bigSep_W0]
  exact point_triple m c t

/-! ## The run, and the arguments kept -/

set_option backward.isDefEq.respectTransparency.types false in
/-- From any memory with zero counters every weakly fair execution of @main terminates without a fault; every
    staged array ends at what the proof data's write-backs make of it and every other buffer as the region found it. -/
theorem run_to_post : θ_run defs (onTc (τ := τ) (main (F := F))) (s₀ m ρ) (Pipeline.FramePost cfgs (data m) 0 (entry m)) :=
  Pipeline.θ_run_frame cfgs (data m) (0 : Fin 1) launch0 defs₀ Variants.none m ρ main
    (hbody := fun c => (every_point m c).loose) (hshare := fun c => (data m 0 c).share_full fun _ => rfl)
    (howed := fun _ _ => rfl) (V := entry m) (hmain := main_to_region m Variants.none) (hA := data_A m) (hΦ := fun _ _ => rfl)

/-- The program runs, faults nowhere, and leaves its twelve argument arrays unchanged. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  args_kept_of m ρ (data m) (run_to_post m ρ)

end Cert.Kernel.Region

end
-- ==== Proof.IdealRegion.lean ====
/-
  The program up to its one region, and what the region finds.

  @main is a stretch of sixty-six host operations followed by the launch of one pipeline over a grid of 64 points.
  Each host operation writes only its own result buffer, and no result buffer is an argument: the twelve argument
  arrays reach the region, and leave it, as launched.  The seven windows of the pipeline stage arrays the host
  stretch computed — the [131072, 970] feature matrix, the five transposed weight matrices — and the result array;
  a window's block at a grid point is read here off the buffer contents after the host stretch.  An input window's
  staging buffer holds that block at every point, whether the pipeline fetched it there or kept it from the point
  before (the weight windows' index never moves).
-/
import proofs.«160854_j67783173865692_1_alg».proof.Proof.Gen.KernelIdeal.Launch
import proofs.«160854_j67783173865692_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers when the region is entered -/

/-- Core `c`'s buffer contents when the region is entered: the launch contents after the host stretch. -/
abbrev entry (c : Dev nD) (b : Ref sig .tc) : Buf (Elt F) ((c : Thread nD τ).loc b) := StableHlo.after hostOps0 (fun b => m (c, b)) b

/-- No host operation allocates a buffer. -/
theorem hostOps_alloc_nothing : (hostOps0 : List (HloOp τ sig (Elt F))).Forall fun op => op.fresh = ∅ := by
  simp only [List.Forall]; repeat' constructor

/-- @main is the host stretch followed by the region. -/
theorem main_to_region (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps_alloc_nothing main_chain

/-- The buffers the host stretch writes: each operation's own result, in program order. -/
abbrev written : List (Ref sig .tc) :=
  [main_v0, main_v1, main_v2, main_v3, main_v4, main_v5, main_v6, main_v7, main_v8, main_v9, main_v10, main_v11, main_cst, main_v12, main_v13, main_v14, main_v15, main_v16, main_v17, main_v18, main_v19, main_v20, main_cst_0, main_v21, main_v22, main_v23, main_c, main_v24, main_v25, main_c_1, main_v26, main_v27, main_v28, main_v29, main_v30, main_c_2, main_v31, main_v32, main_c_3, main_v33, main_v34, main_v35, main_v36, main_v37, main_c_4, main_v38, main_v39, main_c_5, main_v40, main_v41, main_v42, main_v43, main_v44, main_v45, main_v46, main_v47, main_v48, main_v49, main_v50, main_v51, main_v52, main_v53, main_v54, main_v55, main_v56, main_v57]

/-- Every write of the host stretch is into one of them. -/
theorem written_sub : (hostOps0 : List (HloOp τ sig (Elt F))).Forall fun op => op.writes ⊆ (written.map (Proc.devRef (τ := τ) .tc)).toFinset := by
  simp only [hostOps0, List.Forall, StableHlo.nullary_writes, StableHlo.unary_writes, StableHlo.binary_writes, StableHlo.ternary_writes,
    StableHlo.reshape_writes, StableHlo.nary_writes, Finset.singleton_subset_iff, List.mem_toFinset]
  repeat' apply And.intro
  all_goals exact List.mem_map.mpr ⟨_, by decide, rfl⟩

/-- No argument array is among them: the region finds each argument as launched. -/
theorem entry_arg0 (c : Dev nD) : entry m c main_arg0 = m ((c : Thread nD τ).loc main_arg0) :=
  StableHlo.after_of_writes_sub hostOps0 _ written_sub (by decide)
theorem entry_arg1 (c : Dev nD) : entry m c main_arg1 = m ((c : Thread nD τ).loc main_arg1) :=
  StableHlo.after_of_writes_sub hostOps0 _ written_sub (by decide)
theorem entry_arg2 (c : Dev nD) : entry m c main_arg2 = m ((c : Thread nD τ).loc main_arg2) :=
  StableHlo.after_of_writes_sub hostOps0 _ written_sub (by decide)
theorem entry_arg3 (c : Dev nD) : entry m c main_arg3 = m ((c : Thread nD τ).loc main_arg3) :=
  StableHlo.after_of_writes_sub hostOps0 _ written_sub (by decide)
theorem entry_arg4 (c : Dev nD) : entry m c main_arg4 = m ((c : Thread nD τ).loc main_arg4) :=
  StableHlo.after_of_writes_sub hostOps0 _ written_sub (by decide)
theorem entry_arg5 (c : Dev nD) : entry m c main_arg5 = m ((c : Thread nD τ).loc main_arg5) :=
  StableHlo.after_of_writes_sub hostOps0 _ written_sub (by decide)
theorem entry_arg6 (c : Dev nD) : entry m c main_arg6 = m ((c : Thread nD τ).loc main_arg6) :=
  StableHlo.after_of_writes_sub hostOps0 _ written_sub (by decide)
theorem entry_arg7 (c : Dev nD) : entry m c main_arg7 = m ((c : Thread nD τ).loc main_arg7) :=
  StableHlo.after_of_writes_sub hostOps0 _ written_sub (by decide)
theorem entry_arg8 (c : Dev nD) : entry m c main_arg8 = m ((c : Thread nD τ).loc main_arg8) :=
  StableHlo.after_of_writes_sub hostOps0 _ written_sub (by decide)
theorem entry_arg9 (c : Dev nD) : entry m c main_arg9 = m ((c : Thread nD τ).loc main_arg9) :=
  StableHlo.after_of_writes_sub hostOps0 _ written_sub (by decide)
theorem entry_arg10 (c : Dev nD) : entry m c main_arg10 = m ((c : Thread nD τ).loc main_arg10) :=
  StableHlo.after_of_writes_sub hostOps0 _ written_sub (by decide)
theorem entry_arg11 (c : Dev nD) : entry m c main_arg11 = m ((c : Thread nD τ).loc main_arg11) :=
  StableHlo.after_of_writes_sub hostOps0 _ written_sub (by decide)

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's staging buffer holds the window's block at every point, for any proof data over the entry
    contents whose body leaves that buffer as it found it. -/
theorem held_0 {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held_1 {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held_2 {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held_3 {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held_4 {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem held_5 {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## The arguments at the end of a run -/

/-- A run that ends with every buffer no window stages at its entry contents ends with the twelve arguments as
    launched: no window stages an argument. -/
theorem args_kept_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (entry_arg0 m c),
      ((h c).2 main_arg1 (Pipeline.mem_restRefs_of main_arg1 (by decide) (by decide))).trans (entry_arg1 m c),
      ((h c).2 main_arg2 (Pipeline.mem_restRefs_of main_arg2 (by decide) (by decide))).trans (entry_arg2 m c),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c)⟩) h

end Cert.KernelIdeal.Region

end
-- ==== Proof.IdealBody.lean ====
/-
  One grid point of the kernel, and the whole run.

  At a grid point the body loads its six input blocks whole — a [2048, 970] block of feature rows and the five
  weight matrices —, computes, and stores one [2048, 256] block that covers the output window's staging buffer.  So
  after the body that buffer holds the stored value, a function of the six input blocks alone, and the input buffers
  hold what they held.  With the region's invariant passing through untouched this is the body's obligation at every
  point, and the launch theorem turns it into a run of @main: it terminates without a fault, every array a window
  stages ends at what the blocks written back make of it, and every other buffer — the twelve arguments among them —
  ends as the region found it.
-/
import proofs.«160854_j67783173865692_1_alg».proof.Proof.IdealRegion
import proofs.«160854_j67783173865692_1_alg».proof.Proof.Gen.KernelIdeal.Skeleton

set_option maxRecDepth 16384

noncomputable section

namespace Cert.KernelIdeal.Region

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body stores -/

/-- The body reads each input block whole and stores one whole output block. -/
abbrev allX : Rect S2048x970 := Rect.unit (s := S2048x970) ![0, 0] S2048x970.size inb_S2048x970_S2048x970_0_0
abbrev allW0 : Rect S970x512 := Rect.unit (s := S970x512) ![0, 0] S970x512.size inb_S970x512_S970x512_0_0
abbrev allW : Rect S512x512 := Rect.unit (s := S512x512) ![0, 0] S512x512.size inb_S512x512_S512x512_0_0
abbrev allW4 : Rect S512x256 := Rect.unit (s := S512x256) ![0, 0] S512x256.size inb_S512x256_S512x256_0_0
abbrev allOut : Rect S2048x256 := Rect.unit (s := S2048x256) ![0, 0] S2048x256.size inb_S2048x256_S2048x256_0_0

/-- The output window's staging buffer after the body, from the six input blocks: the one stored value. -/
def stored (x : Vec F S2048x970 .f32) (w0 : Vec F S970x512 .bf16) (w1 : Vec F S512x512 .bf16) (w2 : Vec F S512x512 .bf16) (w3 : Vec F S512x512 .bf16) (w4 : Vec F S512x256 .bf16) : Vec F S2048x256 .f32 :=
  View.canon [⟨allOut, k0_pay1 (View.ld x allX) (View.ld w0 allW0) (View.ld w1 allW) (View.ld w2 allW) (View.ld w3 allW) (View.ld w4 allW4)⟩]

/-- The one store covers the buffer. -/
theorem stored_covers (p0 : Vec F S2048x256 .f32) (y : S2048x256.Idx) :
    ∃ pc ∈ ([⟨allOut, p0⟩] : List (View.Piece (Elt F) S2048x256 .f32)), y ∈ pc.1.set :=
  View.cover_of_tiled [⟨allOut, p0⟩] S2048x256.size (by rfl) y

/-! ## The body's triple -/

set_option maxHeartbeats 1000000 in
/-- On whole staging buffers, the inputs' at given contents and the output's at anything, the body runs to a
    continuation that holds the inputs' as they were and the output's at `stored` of the inputs'. -/
theorem body_triple (c : Dev nD) (E : Set ℕ) (i : grid0.Coords) (arg1 : Memref sig .tc .vmem S2048x970 .f32) (harg1 : arg1.IsWhole) (arg2 : Memref sig .tc .vmem S970x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x256 .bf16) (harg6 : arg6.IsWhole) (arg7 : Memref sig .tc .vmem S2048x256 .f32) (harg7 : arg7.IsWhole)
    (x : Vec F S2048x970 .f32) (w0 : Vec F S970x512 .bf16) (w1 : Vec F S512x512 .bf16) (w2 : Vec F S512x512 .bf16) (w3 : Vec F S512x512 .bf16) (w4 : Vec F S512x256 .bf16) (K : PUnit → sProp 𝕄) :
    iprop(owns (c : Thread nD τ) arg1 fullShare x ∗ owns (c : Thread nD τ) arg2 fullShare w0 ∗ owns (c : Thread nD τ) arg3 fullShare w1 ∗ owns (c : Thread nD τ) arg4 fullShare w2 ∗ owns (c : Thread nD τ) arg5 fullShare w3 ∗ owns (c : Thread nD τ) arg6 fullShare w4 ∗ (∃ d, owns (c : Thread nD τ) arg7 fullShare d)
        ∗ (iprop(owns (c : Thread nD τ) arg1 fullShare x ∗ owns (c : Thread nD τ) arg2 fullShare w0 ∗ owns (c : Thread nD τ) arg3 fullShare w1 ∗ owns (c : Thread nD τ) arg4 fullShare w2 ∗ owns (c : Thread nD τ) arg5 fullShare w3 ∗ owns (c : Thread nD τ) arg6 fullShare w4 ∗ owns (c : Thread nD τ) arg7 fullShare (stored x w0 w1 w2 w3 w4)) -∗ K ⟨⟩))
      ⊢ wp frame (wpE (defs₀ (F := F)) Variants.none c none) E (cc0__mlp_kernel i arg1 harg1 arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (stored_covers _)

/-! ## The pipeline's proof data -/

/-- On core `c`: the arrays as the region finds them; after the body at point `t` each input's buffer at its
    block and the output's at `stored` of the six input blocks; the region's invariant unchanged; nothing owed. -/
def data (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => stored (blockAt m c 0 t) (blockAt m c 1 t) (blockAt m c 2 t) (blockAt m c 3 t) (blockAt m c 4 t) (blockAt m c 5 t)
  Φ _ := Pipeline.ΦA spec0 c
  q _ := fullShare
  owed _ := 0

theorem data_A (c : Dev nD) (w : Fin cfg0.W) : (data m 0 c).A w = entry m c (Pipeline.arrRef spec0 w) := by
  dsimp only [data]

theorem left_0 (c : Dev nD) (t : Fin cfg0.N) : (data m 0 c).after 0 t = blockAt m c 0 t := by dsimp only [data]
theorem left_1 (c : Dev nD) (t : Fin cfg0.N) : (data m 0 c).after 1 t = blockAt m c 1 t := by dsimp only [data]
theorem left_2 (c : Dev nD) (t : Fin cfg0.N) : (data m 0 c).after 2 t = blockAt m c 2 t := by dsimp only [data]
theorem left_3 (c : Dev nD) (t : Fin cfg0.N) : (data m 0 c).after 3 t = blockAt m c 3 t := by dsimp only [data]
theorem left_4 (c : Dev nD) (t : Fin cfg0.N) : (data m 0 c).after 4 t = blockAt m c 4 t := by dsimp only [data]
theorem left_5 (c : Dev nD) (t : Fin cfg0.N) : (data m 0 c).after 5 t = blockAt m c 5 t := by dsimp only [data]
theorem left_6 (c : Dev nD) (t : Fin cfg0.N) : (data m 0 c).after 6 t = stored (blockAt m c 0 t) (blockAt m c 1 t) (blockAt m c 2 t) (blockAt m c 3 t) (blockAt m c 4 t) (blockAt m c 5 t) := by dsimp only [data]

theorem found_0 (c : Dev nD) (t : Fin cfg0.N) (d) : (data m 0 c).before 0 t d = blockAt m c 0 t :=
  held_0 m (data m 0 c) (data_A m c 0) (left_0 m c) t d
theorem found_1 (c : Dev nD) (t : Fin cfg0.N) (d) : (data m 0 c).before 1 t d = blockAt m c 1 t :=
  held_1 m (data m 0 c) (data_A m c 1) (left_1 m c) t d
theorem found_2 (c : Dev nD) (t : Fin cfg0.N) (d) : (data m 0 c).before 2 t d = blockAt m c 2 t :=
  held_2 m (data m 0 c) (data_A m c 2) (left_2 m c) t d
theorem found_3 (c : Dev nD) (t : Fin cfg0.N) (d) : (data m 0 c).before 3 t d = blockAt m c 3 t :=
  held_3 m (data m 0 c) (data_A m c 3) (left_3 m c) t d
theorem found_4 (c : Dev nD) (t : Fin cfg0.N) (d) : (data m 0 c).before 4 t d = blockAt m c 4 t :=
  held_4 m (data m 0 c) (data_A m c 4) (left_4 m c) t d
theorem found_5 (c : Dev nD) (t : Fin cfg0.N) (d) : (data m 0 c).before 5 t d = blockAt m c 5 t :=
  held_5 m (data m 0 c) (data_A m c 5) (left_5 m c) t d

/-! ## The body's obligation at a grid point -/

/-- What the body is called with at point `t`, the windows one by one, -/
def pointPre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d)))

/-- and what it returns. -/
def pointPost (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t)
    ∗ owns (c : Thread nD τ) (st0_6 t) fullShare ((data m 0 c).after 6 t))

/-- At any point the input buffers hold their blocks, so the body's triple applies; the invariant passes through. -/
theorem point_triple (c : Dev nD) (t : Fin cfg0.N) :
    pointPre m c t ⊢ wp frame (wpE (defs₀ (F := F)) Variants.none c none) Set.univ (bodyAt0 t) (fun _ => pointPost m c t) := by
  unfold pointPre pointPost bodyAt0
  simp only [found_0, found_1, found_2, found_3, found_4, found_5]
  rw [show (data m 0 c).Φ t.succ = (data m 0 c).Φ t.castSucc from rfl,
    show (data m 0 c).owesAt () t.succ = (data m 0 c).owesAt () t.castSucc from rfl,
    left_0, left_1, left_2, left_3, left_4, left_5, left_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ (grid0.coords t) _ _ _ _ _ _ _ _ _ _ _ _ _ _ (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem every_point (c : Dev nD) : BodyObligation (data (F := F) m 0 c) (defs₀ (F := F)) Variants.none () Set.univ := fun t => by
  rw [bigSep_W0, bigSep_W0]
  exact point_triple m c t

/-! ## The run, and the arguments kept -/

set_option backward.isDefEq.respectTransparency.types false in
/-- From any memory with zero counters every weakly fair execution of @main terminates without a fault; every
    staged array ends at what the proof data's write-backs make of it and every other buffer as the region found it. -/
theorem run_to_post : θ_run defs (onTc (τ := τ) (main (F := F))) (s₀ m ρ) (Pipeline.FramePost cfgs (data m) 0 (entry m)) :=
  Pipeline.θ_run_frame cfgs (data m) (0 : Fin 1) launch0 defs₀ Variants.none m ρ main
    (hbody := fun c => (every_point m c).loose) (hshare := fun c => (data m 0 c).share_full fun _ => rfl)
    (howed := fun _ _ => rfl) (V := entry m) (hmain := main_to_region m Variants.none) (hA := data_A m) (hΦ := fun _ _ => rfl)

/-- The program runs, faults nowhere, and leaves its twelve argument arrays unchanged. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  args_kept_of m ρ (data m) (run_to_post m ρ)

end Cert.KernelIdeal.Region

end
-- ==== Proof.LibNaryResult.lean ====
/-
  A host operation of seven operands, read at its result.

  An operation over a literal family of seven buffers writes its function of the family's contents.  Stated with the
  family under a binder — k ↦ the contents of the k-th buffer — no further fact about any single operand's contents
  applies.  Here the family is spelt operand by operand, each operand's contents at its own buffer, so that a
  computation of "what does this buffer hold after a line of operations" goes on through a seven-way concatenation.
-/
import Idealize.ShloMosaic.Lib.StableHlo
import Idealize.ShloMosaic.Lib.StableHlo.Run

noncomputable section

namespace Cert.LibNaryResult

open Idealize.ShloMosaic Idealize.ShloMosaic.TcCoe Idealize.ShloMosaic.StableHlo

variable {τ : Topo} {sig : RefSig} {Val : EltTy → Type}
variable {x0 x1 x2 x3 x4 x5 x6 y : Ref sig .tc}

/-- The result of a seven-operand operation, each operand's contents at its own buffer. -/
theorem nary7_result
    (f : ((k : Fin 7) → ((![x0, x1, x2, x3, x4, x5, x6] : Fin 7 → Ref sig .tc) k).ty.Contents Val) → y.ty.Contents Val) (hxs hy)
    (F : Valuation τ sig Val) :
    (nary (τ := τ) ![x0, x1, x2, x3, x4, x5, x6] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (fun i => i.elim0)))))))) := by
  rw [nary_result]; congr 1; funext k; fin_cases k <;> rfl

/-- The same, with the result buffer not indexed, for use as a rewriting rule of one simplifier pass. -/
theorem nary7_result'
    (f : ((k : Fin 7) → ((![x0, x1, x2, x3, x4, x5, x6] : Fin 7 → Ref sig .tc) k).ty.Contents Val) → y.ty.Contents Val) (hxs hy)
    (F : Valuation τ sig Val) :
    (nary (τ := τ) ![x0, x1, x2, x3, x4, x5, x6] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (fun i => i.elim0)))))))) :=
  nary7_result f hxs hy F

end Cert.LibNaryResult

end
-- ==== Proof.IdealEntry.lean ====
/-
  What the region finds in the arrays its input windows stage.

  The host stretch before the region computes, from the arguments alone: the [131072, 970] feature matrix — three
  gathered copies of node rows, two radial-basis embeddings, two columns — by exactly the operations the reference
  program computes its own feature matrix with; and, for each of the five weight matrices, its transpose, changed to
  the narrower float format.  Read at an index at the extended reals, where a change of format is the identity, entry
  (k, j) of a staged weight array is entry (j, k) of the argument.
-/
import proofs.«160854_j67783173865692_1_alg».proof.Proof.IdealRegion
import proofs.«160854_j67783173865692_1_alg».proof.Proof.RefRead
import proofs.«160854_j67783173865692_1_alg».proof.Proof.LibNaryResult
import Idealize.ShloMosaic.Lib.Pipeline.Value
import Idealize.ShloMosaic.Lib.ValueIdx

set_option maxRecDepth 16384

noncomputable section

namespace Cert.KernelIdeal.Region

open Cert.KernelIdeal.Gen
open Idealize.ShloMosaic Idealize.ShloMosaic.TcCoe Idealize.SL.Sem Idealize.ShloMosaic.StableHlo Idealize.ShloMosaic.ValueIdx

variable {F : FTy → Type} [FloatOps F]

/-- What one buffer holds after the host stretch, computed operation by operation in one pass. -/
local macro "entry_contents" : tactic => `(tactic| (
  dsimp only [entry, hostOps0]
  simp (disch := decide) only [after_cons, after_nil, nullary_result', unary_result', binary_result', ternary_result', reshape_result',
    Cert.LibNaryResult.nary7_result', nullary_result_ne', unary_result_ne', binary_result_ne', ternary_result_ne', reshape_result_ne',
    nary_result_ne']))

section AnyFloat

variable (m : (ℓ : Loc nD τ sig) → Buf (Elt F) ℓ)

set_option maxHeartbeats 4000000 in
/-- The feature matrix the region finds is the reference's feature matrix of the same arguments. -/
theorem entry_features (c : Dev nD) :
    (entry m c main_v47 : S131072x970.Idx → Elt F .f32)
      = Cert.ReferenceIdeal.Read.val_main_v47 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  entry_contents
  rfl

/-- The staged weight array `main_v49` is the transpose of `main_arg7`, its format changed. -/
theorem entry_w0 (c : Dev nD) :
    (entry m c main_v49 : S970x512.Idx → Elt F .bf16)
      = truncf .bf16 (transpose S970x512 [1, 0] (m ((c : Thread nD τ).loc main_arg7)) transposes_S512x970_S970x512_1_0) bitsLt_bf16_f32 := by
  entry_contents

/-- The staged weight array `main_v51` is the transpose of `main_arg8`, its format changed. -/
theorem entry_w1 (c : Dev nD) :
    (entry m c main_v51 : S512x512.Idx → Elt F .bf16)
      = truncf .bf16 (transpose S512x512 [1, 0] (m ((c : Thread nD τ).loc main_arg8)) transposes_S512x512_S512x512_1_0) bitsLt_bf16_f32 := by
  entry_contents

/-- The staged weight array `main_v53` is the transpose of `main_arg9`, its format changed. -/
theorem entry_w2 (c : Dev nD) :
    (entry m c main_v53 : S512x512.Idx → Elt F .bf16)
      = truncf .bf16 (transpose S512x512 [1, 0] (m ((c : Thread nD τ).loc main_arg9)) transposes_S512x512_S512x512_1_0) bitsLt_bf16_f32 := by
  entry_contents

/-- The staged weight array `main_v55` is the transpose of `main_arg10`, its format changed. -/
theorem entry_w3 (c : Dev nD) :
    (entry m c main_v55 : S512x512.Idx → Elt F .bf16)
      = truncf .bf16 (transpose S512x512 [1, 0] (m ((c : Thread nD τ).loc main_arg10)) transposes_S512x512_S512x512_1_0) bitsLt_bf16_f32 := by
  entry_contents

/-- The staged weight array `main_v57` is the transpose of `main_arg11`, its format changed. -/
theorem entry_w4 (c : Dev nD) :
    (entry m c main_v57 : S512x256.Idx → Elt F .bf16)
      = truncf .bf16 (transpose S512x256 [1, 0] (m ((c : Thread nD τ).loc main_arg11)) transposes_S256x512_S512x256_1_0) bitsLt_bf16_f32 := by
  entry_contents

end AnyFloat

section AtAnIndex

variable (m : (ℓ : Loc nD τ sig) → Buf (Elt Ideal) ℓ)

theorem w0_at (c : Dev nD) (k : Fin 970) (j : Fin 512) :
    (entry m c main_v49 : S970x512.Idx → EReal) (ix2 k j) = (m ((c : Thread nD τ).loc main_arg7) : S512x970.Idx → EReal) (ix2 j k) := by
  rw [entry_w0]
  exact transpose_apply [1, 0] _ transposes_S512x970_S970x512_1_0 (ix2 k j) (ix2 j k) (fun b => match b with
    | ⟨0, _⟩ => rfl
    | ⟨1, _⟩ => rfl)

theorem w1_at (c : Dev nD) (k : Fin 512) (j : Fin 512) :
    (entry m c main_v51 : S512x512.Idx → EReal) (ix2 k j) = (m ((c : Thread nD τ).loc main_arg8) : S512x512.Idx → EReal) (ix2 j k) := by
  rw [entry_w1]
  exact transpose_apply [1, 0] _ transposes_S512x512_S512x512_1_0 (ix2 k j) (ix2 j k) (fun b => match b with
    | ⟨0, _⟩ => rfl
    | ⟨1, _⟩ => rfl)

theorem w2_at (c : Dev nD) (k : Fin 512) (j : Fin 512) :
    (entry m c main_v53 : S512x512.Idx → EReal) (ix2 k j) = (m ((c : Thread nD τ).loc main_arg9) : S512x512.Idx → EReal) (ix2 j k) := by
  rw [entry_w2]
  exact transpose_apply [1, 0] _ transposes_S512x512_S512x512_1_0 (ix2 k j) (ix2 j k) (fun b => match b with
    | ⟨0, _⟩ => rfl
    | ⟨1, _⟩ => rfl)

theorem w3_at (c : Dev nD) (k : Fin 512) (j : Fin 512) :
    (entry m c main_v55 : S512x512.Idx → EReal) (ix2 k j) = (m ((c : Thread nD τ).loc main_arg10) : S512x512.Idx → EReal) (ix2 j k) := by
  rw [entry_w3]
  exact transpose_apply [1, 0] _ transposes_S512x512_S512x512_1_0 (ix2 k j) (ix2 j k) (fun b => match b with
    | ⟨0, _⟩ => rfl
    | ⟨1, _⟩ => rfl)

theorem w4_at (c : Dev nD) (k : Fin 512) (j : Fin 256) :
    (entry m c main_v57 : S512x256.Idx → EReal) (ix2 k j) = (m ((c : Thread nD τ).loc main_arg11) : S256x512.Idx → EReal) (ix2 j k) := by
  rw [entry_w4]
  exact transpose_apply [1, 0] _ transposes_S256x512_S512x256_1_0 (ix2 k j) (ix2 j k) (fun b => match b with
    | ⟨0, _⟩ => rfl
    | ⟨1, _⟩ => rfl)

end AtAnIndex

end Cert.KernelIdeal.Region

end
-- ==== Proof.LibDot.lean ====
/-
  A matrix product with one contracted axis, read at an index as a sum over the contracted extent.
  For dimension numbers that contract the left operand's axis 1 with the right operand's axis 0, with no batch
  axes — the plain product of an [M, K] matrix with a [K, N] matrix — the operand indices at result index (p, q) and
  contraction index k are (p, k) and (k, q); so the sum over the contraction shape is the sum over k < K of
  lhs (p, k) · rhs (k, q). Both a kernel's accumulating product into a zero accumulator and the host's product
  without an accumulator are that sum at the extended reals.
-/
import Idealize.ShloMosaic.Lib.ValueIdx
import Idealize.ShloMosaic.PureOps.Ideal.Laws
import Idealize.ShloMosaic.Lib.KernelVsHost

noncomputable section

namespace Idealize.ShloMosaic.LibDot

open Idealize.ShloMosaic Idealize.ShloMosaic.ValueIdx

variable {sl sr so : Shape} (d : DotDims sl sr so)

/-- A non-contracting, non-batch axis of the left operand reads the result index at its position. -/
theorem lhsIdx_val_of_non {a : Fin sl.rank} (hb : a ∉ d.lhsBatch) (hn : a ∈ d.lhsNonContracting)
    (j : so.Idx) (k : d.contr.Idx) (p : Nat) (hp : p < so.rank) (hpe : d.lhsBatch.length + d.lhsNonContracting.idxOf a = p) :
    (d.lhsIdx j k a).val = (j ⟨p, hp⟩).val := by
  subst hpe
  unfold DotDims.lhsIdx
  rw [dif_neg hb, dif_pos hn]
  rfl

/-- A non-contracting, non-batch axis of the right operand reads the result index at its position. -/
theorem rhsIdx_val_of_non {a : Fin sr.rank} (hb : a ∉ d.rhsBatch) (hn : a ∈ d.rhsNonContracting)
    (j : so.Idx) (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold DotDims.rhsIdx
  rw [dif_neg hb, dif_pos hn]
  rfl

/-- The plain product's sum over the contraction shape is the sum over the contracted extent. -/
theorem sum_plain {M K N : ℕ} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 k q) := by
  have hr : d.contr.rank = 1 := by rw [d.rank_contr, hlc]; rfl
  have hs : d.contr.size ⟨0, by omega⟩ = K := by
    have h := d.size_contr 0 (by rw [hlc]; exact Nat.one_pos)
    simp only [hlc, List.getElem_cons_zero] at h
    exact h
  refine ((Equiv.sum_comp (contrEquiv1 d K hr hs).symm _).symm).trans ?_
  refine Finset.sum_congr rfl fun k _ => ?_
  have hl : d.lhsIdx (ix2 p q) ((contrEquiv1 d K hr hs).symm k) = ix2 p k := by
    funext a; apply Fin.ext
    match a with
    | ⟨0, _⟩ =>
      exact lhsIdx_val_of_non d (a := 0) (by rw [hlb]; exact List.not_mem_nil) (by rw [hln]; exact List.mem_singleton.mpr rfl) _ _ 0 (Nat.zero_lt_two)
        (by rw [hlb, hln]; rfl)
    | ⟨1, _⟩ =>
      exact (d.lhsIdx_val_of_single (cl := 1) hlc _ _).trans (contrEquiv1_symm_val d K hr hs k)
  have hrr : d.rhsIdx (ix2 p q) ((contrEquiv1 d K hr hs).symm k) = ix2 k q := by
    funext a; apply Fin.ext
    match a with
    | ⟨0, _⟩ =>
      exact (d.rhsIdx_val_of_single (cr := 0) hrc _ _).trans (contrEquiv1_symm_val d K hr hs k)
    | ⟨1, _⟩ =>
      exact rhsIdx_val_of_non d (a := 1) (by rw [hrb]; exact List.not_mem_nil) (by rw [hrn]; exact List.mem_singleton.mpr rfl) _ _ 1 (Nat.one_lt_two)
        (by rw [hlb, hln, hrn]; rfl)
  rw [hl, hrr]

/-- A kernel's product accumulated into the zero splat, read at (p, q). -/
theorem matmul_zero_plain {M K N : ℕ} {φ₁ φ₂ : FTy} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) :=
  (Ideal.matmul_constant_zero_apply d prec lhs rhs (ix2 p q)).trans (sum_plain d hlc hrc hlb hrb hln hrn lhs rhs p q)

/-- The host's product, read at (p, q). -/
theorem dotGeneral_plain {M K N : ℕ} {φ₁ φ₂ : FTy} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  rw [← matmul_zero_eq_dotGeneral]
  exact matmul_zero_plain d hlc hrc hlb hrb hln hrn prec lhs rhs p q

end Idealize.ShloMosaic.LibDot

end
-- ==== Proof.LibMlpRows.lean ====
/-
  A perceptron applied row by row, at the extended reals.

  A dense layer with its weight stored [out, in] sends a row x to the row j ↦ Σ_k x_k · W(j, k); the gate is
  z ↦ z · 1/(1 + e^(−z)) (the sigmoid-weighted unit), applied entry by entry.  A matrix product of a block of rows with
  the TRANSPOSED weight — a kernel's product accumulated into zeros, or the host's product — read at (p, q) is the
  dense layer of row p at q.  Since every layer acts on each row by itself, a stack of such layers on a block of rows
  and on the whole matrix agree row by row, whatever the block.
-/
import Idealize.ShloMosaic.Lib.ValueIdx
import Idealize.ShloMosaic.Lib.IdealHost
import Idealize.ShloMosaic.PureOps.Ideal.Laws
import proofs.«160854_j67783173865692_1_alg».proof.Proof.LibDot

noncomputable section

namespace Cert.LibMlpRows

open Idealize.ShloMosaic Idealize.ShloMosaic.ValueIdx

/-- One dense layer on a row, the weight stored [out, in]: out j = Σ_k x k · W (j, k). -/
def denseRow {K N : ℕ} (W : (⟨2, ![N, K]⟩ : Shape).Idx → EReal) (x : Fin K → EReal) : Fin N → EReal :=
  fun j => ∑ k : Fin K, x k * W (ix2 j k)

/-- The gate z · 1/(1 + e^(−z)). -/
def gate (z : EReal) : EReal := z * Ideal.logistic z

/-- The gate on every entry of a row. -/
def gateRow {N : ℕ} (x : Fin N → EReal) : Fin N → EReal := fun j => gate (x j)

/-- Four gated dense layers and a plain one, on a row. -/
def mlp5Row {K H N : ℕ} (W0 : (⟨2, ![H, K]⟩ : Shape).Idx → EReal) (W1 W2 W3 : (⟨2, ![H, H]⟩ : Shape).Idx → EReal)
    (Wout : (⟨2, ![N, H]⟩ : Shape).Idx → EReal) (x : Fin K → EReal) : Fin N → EReal :=
  denseRow Wout (gateRow (denseRow W3 (gateRow (denseRow W2 (gateRow (denseRow W1 (gateRow (denseRow W0 x))))))))

/-- The gate spelt with a quotient, as a host program expands it. -/
theorem gate_quotient (z : EReal) : z * Ideal.div 1 (1 + Ideal.exp (-z)) = gate z := rfl

/-- A kernel's gate on a vector — the product with the logistic, then a change of float format — at an index. -/
theorem gate_kernel {s : Shape} {ψ : FTy} (z : FVec Ideal s .f32) (h : ψ.bits < FTy.bits .f32) (i : s.Idx) :
    (truncf ψ (mulf z (logistic z)) h : FVec Ideal s ψ) i = gate (z i) := rfl

/-- A kernel's product of a block of rows with a [K, N] matrix, accumulated into zeros, at (p, q): the dense layer of
    row p at q, when the matrix is the transposed weight on column q. -/
theorem matmul_row {R K N : ℕ} {φ₁ φ₂ : FTy} (d : DotDims ⟨2, ![R, K]⟩ ⟨2, ![K, N]⟩ ⟨2, ![R, N]⟩)
    (hlc : d.lhsContracting = [1]) (hrc : d.rhsContracting = [0]) (hlb : d.lhsBatch = []) (hrb : d.rhsBatch = [])
    (hln : d.lhsNonContracting = [0]) (hrn : d.rhsNonContracting = [1]) (prec : Option ContractPrecision)
    (a : FVec Ideal ⟨2, ![R, K]⟩ φ₁) (b : FVec Ideal ⟨2, ![K, N]⟩ φ₂) (W : (⟨2, ![N, K]⟩ : Shape).Idx → EReal)
    (x : Fin K → EReal) (p : Fin R) (q : Fin N) (ha : ∀ k, a (ix2 p k) = x k) (hb : ∀ k, b (ix2 k q) = W (ix2 q k)) :
    matmul d prec a b (constant ⟨2, ![R, N]⟩ .f32 0x00000000#32) (ix2 p q) = denseRow W x q := by
  rw [LibDot.matmul_zero_plain d hlc hrc hlb hrb hln hrn prec a b p q]
  exact Finset.sum_congr rfl fun k _ => by rw [ha k, hb k]

/-- The host's product of a matrix with a [K, N] matrix at (r, q): the dense layer of row r at q, when the right
    operand is the transposed weight on column q. -/
theorem dotGeneral_row {T K N : ℕ} {φ₁ φ₂ : FTy} (d : DotDims ⟨2, ![T, K]⟩ ⟨2, ![K, N]⟩ ⟨2, ![T, N]⟩)
    (hlc : d.lhsContracting = [1]) (hrc : d.rhsContracting = [0]) (hlb : d.lhsBatch = []) (hrb : d.rhsBatch = [])
    (hln : d.lhsNonContracting = [0]) (hrn : d.rhsNonContracting = [1]) (prec : Option ContractPrecision)
    (a : FVec Ideal ⟨2, ![T, K]⟩ φ₁) (b : FVec Ideal ⟨2, ![K, N]⟩ φ₂) (W : (⟨2, ![N, K]⟩ : Shape).Idx → EReal)
    (x : Fin K → EReal) (r : Fin T) (q : Fin N) (ha : ∀ k, a (ix2 r k) = x k) (hb : ∀ k, b (ix2 k q) = W (ix2 q k)) :
    Host.dotGeneral d prec a b (ix2 r q) = denseRow W x q := by
  rw [LibDot.dotGeneral_plain d hlc hrc hlb hrb hln hrn prec a b r q]
  exact Finset.sum_congr rfl fun k _ => by rw [ha k, hb k]

end Cert.LibMlpRows

end
-- ==== Proof.IdealPayload.lean ====
/-
  The value the body stores, read at an entry.

  The body's stored [2048, 256] block is five matrix products of a block of 2048 rows, the first four each followed
  by the gate z · 1/(1 + e^(−z)); every product is accumulated into zeros and every change of float format is the
  identity at the extended reals.  Each staged weight is the transpose of a weight stored [out, in], so a product read
  at (p, j) is the dense layer of row p at j, and the whole stored value at (p, q) is the five-layer perceptron of
  row p of the feature block, at q: each row is treated by itself.
-/
import proofs.«160854_j67783173865692_1_alg».proof.Proof.Gen.KernelIdeal.Skeleton
import proofs.«160854_j67783173865692_1_alg».proof.Proof.LibMlpRows
import Idealize.ShloMosaic.Lib.Pipeline.Value

set_option maxRecDepth 16384

noncomputable section

namespace Cert.KernelIdeal.Region

open Cert.KernelIdeal.Gen Cert.LibMlpRows
open Idealize.ShloMosaic Idealize.ShloMosaic.ValueIdx

/-- The stored value at (p, q) is the perceptron of row p, at q, when each loaded weight block is a transposed weight. -/
theorem stored_value_at (x : Vec Ideal S2048x970 .f32) (v3 : Vec Ideal S970x512 .bf16) (v9 v15 v21 : Vec Ideal S512x512 .bf16)
    (v27 : Vec Ideal S512x256 .bf16)
    (W0 : S512x970.Idx → EReal) (W1 W2 W3 : S512x512.Idx → EReal) (Wout : S256x512.Idx → EReal)
    (h0 : ∀ (k : Fin 970) (j : Fin 512), v3 (ix2 k j) = W0 (ix2 j k))
    (h1 : ∀ (k j : Fin 512), v9 (ix2 k j) = W1 (ix2 j k))
    (h2 : ∀ (k j : Fin 512), v15 (ix2 k j) = W2 (ix2 j k))
    (h3 : ∀ (k j : Fin 512), v21 (ix2 k j) = W3 (ix2 j k))
    (h4 : ∀ (k : Fin 512) (j : Fin 256), v27 (ix2 k j) = Wout (ix2 j k)) (p : Fin 2048) (q : Fin 256) :
    k0_pay1 (F := Ideal) x v3 v9 v15 v21 v27 (ix2 p q)
      = mlp5Row (K := 970) (H := 512) (N := 256) W0 W1 W2 W3 Wout (fun k => x (ix2 p k)) q := by
  unfold k0_pay1 mlp5Row
  refine matmul_row _ rfl rfl rfl rfl rfl rfl none _ _ Wout _ p q (fun k4 => ?_)
    (fun k4 => (congrFun (shapeCast_self v27 _) _).trans (h4 k4 q))
  refine (gate_kernel _ _ _).trans (congrArg gate ?_)
  refine matmul_row _ rfl rfl rfl rfl rfl rfl none _ _ W3 _ p k4 (fun k3 => ?_)
    (fun k3 => (congrFun (shapeCast_self v21 _) _).trans (h3 k3 k4))
  refine (gate_kernel _ _ _).trans (congrArg gate ?_)
  refine matmul_row _ rfl rfl rfl rfl rfl rfl none _ _ W2 _ p k3 (fun k2 => ?_)
    (fun k2 => (congrFun (shapeCast_self v15 _) _).trans (h2 k2 k3))
  refine (gate_kernel _ _ _).trans (congrArg gate ?_)
  refine matmul_row _ rfl rfl rfl rfl rfl rfl none _ _ W1 _ p k2 (fun k1 => ?_)
    (fun k1 => (congrFun (shapeCast_self v9 _) _).trans (h1 k1 k2))
  refine (gate_kernel _ _ _).trans (congrArg gate ?_)
  refine matmul_row _ rfl rfl rfl rfl rfl rfl none _ _ W0 _ p k1 (fun k0 => ?_)
    (fun k0 => (congrFun (shapeCast_self v3 _) _).trans (h0 k0 k1))
  exact congrFun (shapeCast_self x _) _

end Cert.KernelIdeal.Region

end
-- ==== Proof.RefRows.lean ====
/-
  The reference's result, row by row.

  The reference computes the feature matrix, then five products with transposed weights, a called gate function
  after each of the first four.  The called function spells the gate as z · (1 / (1 + e^(−z))) with a host quotient,
  which at the extended reals is the same function as the logistic.  A product with a transposed weight read at
  (r, j) is the dense layer of row r at j; so the reference's result at (r, q) is the five-layer perceptron of row r
  of the feature matrix, at q.
-/
import proofs.«160854_j67783173865692_1_alg».proof.Proof.RefRead
import proofs.«160854_j67783173865692_1_alg».proof.Proof.LibMlpRows
import Idealize.ShloMosaic.Lib.IdealHost

set_option maxRecDepth 16384

noncomputable section

namespace Cert.ReferenceIdeal.Rows

open Cert.ReferenceIdeal Cert.ReferenceIdeal.Gen Cert.ReferenceIdeal.Read Cert.LibMlpRows
open Idealize.ShloMosaic Idealize.ShloMosaic.ValueIdx

variable (x0 : (⟨S50000x256, .f32⟩ : BufTy).Contents (Elt Ideal)) (x1 : (⟨S3x131072, .i32⟩ : BufTy).Contents (Elt Ideal))
  (x2 x3 x4 x5 : (⟨S131072, .f32⟩ : BufTy).Contents (Elt Ideal)) (x6 : (⟨S100, .f32⟩ : BufTy).Contents (Elt Ideal))
  (x7 : (⟨S512x970, .f32⟩ : BufTy).Contents (Elt Ideal)) (x8 x9 x10 : (⟨S512x512, .f32⟩ : BufTy).Contents (Elt Ideal)) (x11 : (⟨S256x512, .f32⟩ : BufTy).Contents (Elt Ideal))

/-- The feature matrix, as a function of the first seven arguments. -/
abbrev features : S131072x970.Idx → EReal := val_main_v47 (F := Ideal) x0 x1 x2 x3 x4 x5 x6

/-- The result both programs compute: at (r, q), the perceptron of row r of the feature matrix, at q. -/
def result : S131072x256.Idx → EReal :=
  fun i => mlp5Row (K := 970) (H := 512) (N := 256) x7 x8 x9 x10 x11 (fun k => features x0 x1 x2 x3 x4 x5 x6 (ix2 (i 0) k)) (i 1)

theorem result_apply (r : Fin 131072) (q : Fin 256) :
    result x0 x1 x2 x3 x4 x5 x6 x7 x8 x9 x10 x11 (ix2 r q)
      = mlp5Row (K := 970) (H := 512) (N := 256) x7 x8 x9 x10 x11 (fun k => features x0 x1 x2 x3 x4 x5 x6 (ix2 r k)) q := rfl

/-- Stage `val_main_v48` is the transpose of the weight: entry (k, j) is the weight's entry (j, k). -/
theorem transposed_0 (k : Fin 970) (j : Fin 512) : val_main_v48 (F := Ideal) x7 (ix2 k j) = x7 (ix2 j k) := by
  unfold val_main_v48
  exact transpose_apply [1, 0] x7 transposes_S512x970_S970x512_1_0 (ix2 k j) (ix2 j k) (fun b => match b with
    | ⟨0, _⟩ => rfl
    | ⟨1, _⟩ => rfl)

/-- The first product at (r, j): the dense layer of row r of the feature matrix, at j. -/
theorem product_0 (r : Fin 131072) (j : Fin 512) :
    val_main_v49 (F := Ideal) x0 x1 x2 x3 x4 x5 x6 x7 (ix2 r j) = denseRow (K := 970) (N := 512) x7 (fun k => features x0 x1 x2 x3 x4 x5 x6 (ix2 r k)) j := by
  unfold val_main_v49
  exact dotGeneral_row _ rfl rfl rfl rfl rfl rfl none _ _ x7 _ r j (fun k => rfl) (fun k => transposed_0 x7 k j)

/-- The called gate function, operation by operation at an index: z · 1/(1 + e^(−z)). -/
theorem gated_0 (i : S131072x512.Idx) :
    val_main_v50 (F := Ideal) x0 x1 x2 x3 x4 x5 x6 x7 i = gate (val_main_v49 (F := Ideal) x0 x1 x2 x3 x4 x5 x6 x7 i) := by
  simp only [val_main_v50_apply, val_main_call0_v5_apply, val_main_call0_v4_apply, val_main_call0_cst_0_apply, val_main_call0_v3_apply, val_main_call0_v2_apply, val_main_call0_cst_apply,
    val_main_call0_v1_apply, val_main_call0_v0_apply, Ideal.mulf_def, Ideal.hostDivf_def, Ideal.addf_def, Ideal.hostUnary_exp_def, Ideal.hostNegf_def,
    Ideal.negf_def, Ideal.ofBits_def, Ideal.ofBits_one_f32]
  exact gate_quotient _

theorem layer_0 (r : Fin 131072) (j : Fin 512) :
    val_main_v50 (F := Ideal) x0 x1 x2 x3 x4 x5 x6 x7 (ix2 r j) = gateRow (denseRow (K := 970) (N := 512) x7 (fun k => features x0 x1 x2 x3 x4 x5 x6 (ix2 r k))) j :=
  (gated_0 x0 x1 x2 x3 x4 x5 x6 x7 (ix2 r j)).trans (congrArg gate (product_0 x0 x1 x2 x3 x4 x5 x6 x7 r j))

/-- Stage `val_main_v51` is the transpose of the weight: entry (k, j) is the weight's entry (j, k). -/
theorem transposed_1 (k : Fin 512) (j : Fin 512) : val_main_v51 (F := Ideal) x8 (ix2 k j) = x8 (ix2 j k) := by
  unfold val_main_v51
  exact transpose_apply [1, 0] x8 transposes_S512x512_S512x512_1_0 (ix2 k j) (ix2 j k) (fun b => match b with
    | ⟨0, _⟩ => rfl
    | ⟨1, _⟩ => rfl)

/-- The second product at (r, j): the dense layer of row r of the layer before, at j. -/
theorem product_1 (r : Fin 131072) (j : Fin 512) :
    val_main_v52 (F := Ideal) x0 x1 x2 x3 x4 x5 x6 x7 x8 (ix2 r j) = denseRow (K := 512) (N := 512) x8 (gateRow (denseRow (K := 970) (N := 512) x7 (fun k => features x0 x1 x2 x3 x4 x5 x6 (ix2 r k)))) j := by
  unfold val_main_v52
  exact dotGeneral_row _ rfl rfl rfl rfl rfl rfl none _ _ x8 _ r j (fun k => layer_0 x0 x1 x2 x3 x4 x5 x6 x7 r k) (fun k => transposed_1 x8 k j)

/-- The called gate function, operation by operation at an index: z · 1/(1 + e^(−z)). -/
theorem gated_1 (i : S131072x512.Idx) :
    val_main_v53 (F := Ideal) x0 x1 x2 x3 x4 x5 x6 x7 x8 i = gate (val_main_v52 (F := Ideal) x0 x1 x2 x3 x4 x5 x6 x7 x8 i) := by
  simp only [val_main_v53_apply, val_main_call1_v5_apply, val_main_call1_v4_apply, val_main_call1_cst_0_apply, val_main_call1_v3_apply, val_main_call1_v2_apply, val_main_call1_cst_apply,
    val_main_call1_v1_apply, val_main_call1_v0_apply, Ideal.mulf_def, Ideal.hostDivf_def, Ideal.addf_def, Ideal.hostUnary_exp_def, Ideal.hostNegf_def,
    Ideal.negf_def, Ideal.ofBits_def, Ideal.ofBits_one_f32]
  exact gate_quotient _

theorem layer_1 (r : Fin 131072) (j : Fin 512) :
    val_main_v53 (F := Ideal) x0 x1 x2 x3 x4 x5 x6 x7 x8 (ix2 r j) = gateRow (denseRow (K := 512) (N := 512) x8 (gateRow (denseRow (K := 970) (N := 512) x7 (fun k => features x0 x1 x2 x3 x4 x5 x6 (ix2 r k))))) j :=
  (gated_1 x0 x1 x2 x3 x4 x5 x6 x7 x8 (ix2 r j)).trans (congrArg gate (product_1 x0 x1 x2 x3 x4 x5 x6 x7 x8 r j))

/-- Stage `val_main_v54` is the transpose of the weight: entry (k, j) is the weight's entry (j, k). -/
theorem transposed_2 (k : Fin 512) (j : Fin 512) : val_main_v54 (F := Ideal) x9 (ix2 k j) = x9 (ix2 j k) := by
  unfold val_main_v54
  exact transpose_apply [1, 0] x9 transposes_S512x512_S512x512_1_0 (ix2 k j) (ix2 j k) (fun b => match b with
    | ⟨0, _⟩ => rfl
    | ⟨1, _⟩ => rfl)

/-- The third product at (r, j): the dense layer of row r of the layer before, at j. -/
theorem product_2 (r : Fin 131072) (j : Fin 512) :
    val_main_v55 (F := Ideal) x0 x1 x2 x3 x4 x5 x6 x7 x8 x9 (ix2 r j) = denseRow (K := 512) (N := 512) x9 (gateRow (denseRow (K := 512) (N := 512) x8 (gateRow (denseRow (K := 970) (N := 512) x7 (fun k => features x0 x1 x2 x3 x4 x5 x6 (ix2 r k)))))) j := by
  unfold val_main_v55
  exact dotGeneral_row _ rfl rfl rfl rfl rfl rfl none _ _ x9 _ r j (fun k => layer_1 x0 x1 x2 x3 x4 x5 x6 x7 x8 r k) (fun k => transposed_2 x9 k j)

/-- The called gate function, operation by operation at an index: z · 1/(1 + e^(−z)). -/
theorem gated_2 (i : S131072x512.Idx) :
    val_main_v56 (F := Ideal) x0 x1 x2 x3 x4 x5 x6 x7 x8 x9 i = gate (val_main_v55 (F := Ideal) x0 x1 x2 x3 x4 x5 x6 x7 x8 x9 i) := by
  simp only [val_main_v56_apply, val_main_call2_v5_apply, val_main_call2_v4_apply, val_main_call2_cst_0_apply, val_main_call2_v3_apply, val_main_call2_v2_apply, val_main_call2_cst_apply,
    val_main_call2_v1_apply, val_main_call2_v0_apply, Ideal.mulf_def, Ideal.hostDivf_def, Ideal.addf_def, Ideal.hostUnary_exp_def, Ideal.hostNegf_def,
    Ideal.negf_def, Ideal.ofBits_def, Ideal.ofBits_one_f32]
  exact gate_quotient _

theorem layer_2 (r : Fin 131072) (j : Fin 512) :
    val_main_v56 (F := Ideal) x0 x1 x2 x3 x4 x5 x6 x7 x8 x9 (ix2 r j) = gateRow (denseRow (K := 512) (N := 512) x9 (gateRow (denseRow (K := 512) (N := 512) x8 (gateRow (denseRow (K := 970) (N := 512) x7 (fun k => features x0 x1 x2 x3 x4 x5 x6 (ix2 r k))))))) j :=
  (gated_2 x0 x1 x2 x3 x4 x5 x6 x7 x8 x9 (ix2 r j)).trans (congrArg gate (product_2 x0 x1 x2 x3 x4 x5 x6 x7 x8 x9 r j))

/-- Stage `val_main_v57` is the transpose of the weight: entry (k, j) is the weight's entry (j, k). -/
theorem transposed_3 (k : Fin 512) (j : Fin 512) : val_main_v57 (F := Ideal) x10 (ix2 k j) = x10 (ix2 j k) := by
  unfold val_main_v57
  exact transpose_apply [1, 0] x10 transposes_S512x512_S512x512_1_0 (ix2 k j) (ix2 j k) (fun b => match b with
    | ⟨0, _⟩ => rfl
    | ⟨1, _⟩ => rfl)

/-- The fourth product at (r, j): the dense layer of row r of the layer before, at j. -/
theorem product_3 (r : Fin 131072) (j : Fin 512) :
    val_main_v58 (F := Ideal) x0 x1 x2 x3 x4 x5 x6 x7 x8 x9 x10 (ix2 r j) = denseRow (K := 512) (N := 512) x10 (gateRow (denseRow (K := 512) (N := 512) x9 (gateRow (denseRow (K := 512) (N := 512) x8 (gateRow (denseRow (K := 970) (N := 512) x7 (fun k => features x0 x1 x2 x3 x4 x5 x6 (ix2 r k)))))))) j := by
  unfold val_main_v58
  exact dotGeneral_row _ rfl rfl rfl rfl rfl rfl none _ _ x10 _ r j (fun k => layer_2 x0 x1 x2 x3 x4 x5 x6 x7 x8 x9 r k) (fun k => transposed_3 x10 k j)

/-- The called gate function, operation by operation at an index: z · 1/(1 + e^(−z)). -/
theorem gated_3 (i : S131072x512.Idx) :
    val_main_v59 (F := Ideal) x0 x1 x2 x3 x4 x5 x6 x7 x8 x9 x10 i = gate (val_main_v58 (F := Ideal) x0 x1 x2 x3 x4 x5 x6 x7 x8 x9 x10 i) := by
  simp only [val_main_v59_apply, val_main_call3_v5_apply, val_main_call3_v4_apply, val_main_call3_cst_0_apply, val_main_call3_v3_apply, val_main_call3_v2_apply, val_main_call3_cst_apply,
    val_main_call3_v1_apply, val_main_call3_v0_apply, Ideal.mulf_def, Ideal.hostDivf_def, Ideal.addf_def, Ideal.hostUnary_exp_def, Ideal.hostNegf_def,
    Ideal.negf_def, Ideal.ofBits_def, Ideal.ofBits_one_f32]
  exact gate_quotient _

theorem layer_3 (r : Fin 131072) (j : Fin 512) :
    val_main_v59 (F := Ideal) x0 x1 x2 x3 x4 x5 x6 x7 x8 x9 x10 (ix2 r j) = gateRow (denseRow (K := 512) (N := 512) x10 (gateRow (denseRow (K := 512) (N := 512) x9 (gateRow (denseRow (K := 512) (N := 512) x8 (gateRow (denseRow (K := 970) (N := 512) x7 (fun k => features x0 x1 x2 x3 x4 x5 x6 (ix2 r k))))))))) j :=
  (gated_3 x0 x1 x2 x3 x4 x5 x6 x7 x8 x9 x10 (ix2 r j)).trans (congrArg gate (product_3 x0 x1 x2 x3 x4 x5 x6 x7 x8 x9 x10 r j))

/-- Stage `val_main_v60` is the transpose of the weight: entry (k, j) is the weight's entry (j, k). -/
theorem transposed_4 (k : Fin 512) (j : Fin 256) : val_main_v60 (F := Ideal) x11 (ix2 k j) = x11 (ix2 j k) := by
  unfold val_main_v60
  exact transpose_apply [1, 0] x11 transposes_S256x512_S512x256_1_0 (ix2 k j) (ix2 j k) (fun b => match b with
    | ⟨0, _⟩ => rfl
    | ⟨1, _⟩ => rfl)

/-- The fifth product at (r, j): the dense layer of row r of the layer before, at j. -/
theorem product_4 (r : Fin 131072) (j : Fin 256) :
    val_main_v61 (F := Ideal) x0 x1 x2 x3 x4 x5 x6 x7 x8 x9 x10 x11 (ix2 r j) = denseRow (K := 512) (N := 256) x11 (gateRow (denseRow (K := 512) (N := 512) x10 (gateRow (denseRow (K := 512) (N := 512) x9 (gateRow (denseRow (K := 512) (N := 512) x8 (gateRow (denseRow (K := 970) (N := 512) x7 (fun k => features x0 x1 x2 x3 x4 x5 x6 (ix2 r k)))))))))) j := by
  unfold val_main_v61
  exact dotGeneral_row _ rfl rfl rfl rfl rfl rfl none _ _ x11 _ r j (fun k => layer_3 x0 x1 x2 x3 x4 x5 x6 x7 x8 x9 x10 r k) (fun k => transposed_4 x11 k j)

/-- The reference's result array is `result` of the arguments. -/
theorem reference_result : val_main_v61 (F := Ideal) x0 x1 x2 x3 x4 x5 x6 x7 x8 x9 x10 x11 = result x0 x1 x2 x3 x4 x5 x6 x7 x8 x9 x10 x11 := by
  funext i
  obtain ⟨r, q, rfl⟩ : ∃ (r : Fin 131072) (q : Fin 256), i = ix2 r q := ⟨i 0, i 1, eq_ix2 i⟩
  exact (product_4 x0 x1 x2 x3 x4 x5 x6 x7 x8 x9 x10 x11 r q).trans (result_apply x0 x1 x2 x3 x4 x5 x6 x7 x8 x9 x10 x11 r q).symm

end Cert.ReferenceIdeal.Rows

end
-- ==== Proof.IdealArray.lean ====
/-
  From the blocks written back to the whole result array.

  Grid point t stages rows 2048·t … 2048·t + 2047 of the feature matrix and writes back rows 2048·t … 2048·t + 2047
  of the result; the five weight windows never move.  The stored block at (p, q) is the perceptron of row p of the
  staged feature rows, which is row 2048·t + p of the feature matrix, so what point t writes back is block t of ONE
  function of the arguments: result(r, q) = the perceptron of row r of the feature matrix, at q.  The 64 blocks tile
  the [131072, 256] array — row r is in block r / 2048 —, so after the run the array is that function.
-/
import proofs.«160854_j67783173865692_1_alg».proof.Proof.IdealBody
import proofs.«160854_j67783173865692_1_alg».proof.Proof.IdealEntry
import proofs.«160854_j67783173865692_1_alg».proof.Proof.IdealPayload
import proofs.«160854_j67783173865692_1_alg».proof.Proof.RefRows
import Idealize.ShloMosaic.Lib.Pipeline.Value

set_option maxRecDepth 16384

noncomputable section

namespace Cert.KernelIdeal.Region

open Cert.KernelIdeal.Gen Cert.LibMlpRows
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result array as one function of the arguments' launch contents on core `c`. -/
abbrev resultOf (c : Dev nD) : S131072x256.Idx → EReal :=
  Cert.ReferenceIdeal.Rows.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

theorem origin_zero : (![0, 0] : Fin 2 → Nat) = fun _ => 0 := funext fun a => by fin_cases a <;> rfl

/-- The printed index maps over the grid: the feature window and the result window are at block row t, the weight
    windows at block (0, 0). -/
theorem index_facts : ∀ t : Fin cfg0.N, win0_0.index t (0 : Fin 2) = t.val
    ∧ win0_0.index t (1 : Fin 2) = 0
    ∧ win0_6.index t (0 : Fin 2) = t.val
    ∧ win0_6.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0 :=
  (by decide +kernel : ∀ t : Fin grid0.N, _)

/-- Weight window 1's one block is its whole staged array: entry (k, j) is the argument's entry (j, k). -/
theorem weight_block_1 (c : Dev nD) (t : Fin cfg0.N) (k : Fin 970) (j : Fin 512) :
    (blockAt m c 1 t : S970x512.Idx → EReal) (ix2 k j) = (m ((c : Thread nD τ).loc main_arg7) : S512x970.Idx → EReal) (ix2 j k) := by
  have e := index_facts t
  refine Eq.trans ?_ (w0_at m c k j)
  show (entry m c main_v49 : S970x512.Idx → EReal) (((cfg0.win 1).blk t).view.emb (ix2 k j)) = (entry m c main_v49 : S970x512.Idx → EReal) (ix2 k j)
  refine congrArg _ (funext fun a => Fin.ext ?_)
  match a with
  | ⟨0, _⟩ => show win0_1.index t (0 : Fin 2) * 970 + 1 * k.val = k.val; omega
  | ⟨1, _⟩ => show win0_1.index t (1 : Fin 2) * 512 + 1 * j.val = j.val; omega

/-- Weight window 2's one block is its whole staged array: entry (k, j) is the argument's entry (j, k). -/
theorem weight_block_2 (c : Dev nD) (t : Fin cfg0.N) (k : Fin 512) (j : Fin 512) :
    (blockAt m c 2 t : S512x512.Idx → EReal) (ix2 k j) = (m ((c : Thread nD τ).loc main_arg8) : S512x512.Idx → EReal) (ix2 j k) := by
  have e := index_facts t
  refine Eq.trans ?_ (w1_at m c k j)
  show (entry m c main_v51 : S512x512.Idx → EReal) (((cfg0.win 2).blk t).view.emb (ix2 k j)) = (entry m c main_v51 : S512x512.Idx → EReal) (ix2 k j)
  refine congrArg _ (funext fun a => Fin.ext ?_)
  match a with
  | ⟨0, _⟩ => show win0_2.index t (0 : Fin 2) * 512 + 1 * k.val = k.val; omega
  | ⟨1, _⟩ => show win0_2.index t (1 : Fin 2) * 512 + 1 * j.val = j.val; omega

/-- Weight window 3's one block is its whole staged array: entry (k, j) is the argument's entry (j, k). -/
theorem weight_block_3 (c : Dev nD) (t : Fin cfg0.N) (k : Fin 512) (j : Fin 512) :
    (blockAt m c 3 t : S512x512.Idx → EReal) (ix2 k j) = (m ((c : Thread nD τ).loc main_arg9) : S512x512.Idx → EReal) (ix2 j k) := by
  have e := index_facts t
  refine Eq.trans ?_ (w2_at m c k j)
  show (entry m c main_v53 : S512x512.Idx → EReal) (((cfg0.win 3).blk t).view.emb (ix2 k j)) = (entry m c main_v53 : S512x512.Idx → EReal) (ix2 k j)
  refine congrArg _ (funext fun a => Fin.ext ?_)
  match a with
  | ⟨0, _⟩ => show win0_3.index t (0 : Fin 2) * 512 + 1 * k.val = k.val; omega
  | ⟨1, _⟩ => show win0_3.index t (1 : Fin 2) * 512 + 1 * j.val = j.val; omega

/-- Weight window 4's one block is its whole staged array: entry (k, j) is the argument's entry (j, k). -/
theorem weight_block_4 (c : Dev nD) (t : Fin cfg0.N) (k : Fin 512) (j : Fin 512) :
    (blockAt m c 4 t : S512x512.Idx → EReal) (ix2 k j) = (m ((c : Thread nD τ).loc main_arg10) : S512x512.Idx → EReal) (ix2 j k) := by
  have e := index_facts t
  refine Eq.trans ?_ (w3_at m c k j)
  show (entry m c main_v55 : S512x512.Idx → EReal) (((cfg0.win 4).blk t).view.emb (ix2 k j)) = (entry m c main_v55 : S512x512.Idx → EReal) (ix2 k j)
  refine congrArg _ (funext fun a => Fin.ext ?_)
  match a with
  | ⟨0, _⟩ => show win0_4.index t (0 : Fin 2) * 512 + 1 * k.val = k.val; omega
  | ⟨1, _⟩ => show win0_4.index t (1 : Fin 2) * 512 + 1 * j.val = j.val; omega

/-- Weight window 5's one block is its whole staged array: entry (k, j) is the argument's entry (j, k). -/
theorem weight_block_5 (c : Dev nD) (t : Fin cfg0.N) (k : Fin 512) (j : Fin 256) :
    (blockAt m c 5 t : S512x256.Idx → EReal) (ix2 k j) = (m ((c : Thread nD τ).loc main_arg11) : S256x512.Idx → EReal) (ix2 j k) := by
  have e := index_facts t
  refine Eq.trans ?_ (w4_at m c k j)
  show (entry m c main_v57 : S512x256.Idx → EReal) (((cfg0.win 5).blk t).view.emb (ix2 k j)) = (entry m c main_v57 : S512x256.Idx → EReal) (ix2 k j)
  refine congrArg _ (funext fun a => Fin.ext ?_)
  match a with
  | ⟨0, _⟩ => show win0_5.index t (0 : Fin 2) * 512 + 1 * k.val = k.val; omega
  | ⟨1, _⟩ => show win0_5.index t (1 : Fin 2) * 256 + 1 * j.val = j.val; omega

/-- What point t writes back is block t of `resultOf`. -/
theorem written_back (c : Dev nD) (t : Fin cfg0.N) :
    (data m 0 c).flushed 6 t = ((cfg0.win 6).blk t).view.read (Elt Ideal) (resultOf m c) := by
  show (cfg0.win 6).cut (grid0.coords t) ((data m 0 c).after 6 t) = _
  rw [left_6]
  unfold stored
  rw [View.canon_unit_zero origin_zero]
  simp only [View.ld_unit_zero (S := S2048x970) origin_zero, View.ld_unit_zero (S := S970x512) origin_zero,
    View.ld_unit_zero (S := S512x512) origin_zero, View.ld_unit_zero (S := S512x256) origin_zero]
  have ht : t.val < 64 := lt_of_lt_of_eq t.isLt N_0
  obtain ⟨e00, e01, e60, e61, -⟩ := index_facts t
  funext j
  obtain ⟨p, q, rfl⟩ : ∃ (p : Fin 2048) (q : Fin 256), j = ix2 p q := ⟨j 0, j 1, eq_ix2 j⟩
  show k0_pay1 (F := Ideal) (blockAt m c 0 t) (blockAt m c 1 t) (blockAt m c 2 t) (blockAt m c 3 t) (blockAt m c 4 t) (blockAt m c 5 t) (ix2 p q)
    = resultOf m c (((cfg0.win 6).blk t).view.emb (ix2 p q))
  have hrow : ((cfg0.win 6).blk t).view.emb (ix2 p q) = ix2 (⟨t.val * 2048 + p.val, by omega⟩ : Fin 131072) q := by
    funext a; apply Fin.ext
    match a with
    | ⟨0, _⟩ => show win0_6.index t (0 : Fin 2) * 2048 + 1 * p.val = t.val * 2048 + p.val; omega
    | ⟨1, _⟩ => show win0_6.index t (1 : Fin 2) * 256 + 1 * q.val = q.val; omega
  rw [hrow]
  refine Eq.trans ?_ (Cert.ReferenceIdeal.Rows.result_apply _ _ _ _ _ _ _ _ _ _ _ _ (⟨t.val * 2048 + p.val, by omega⟩ : Fin 131072) q).symm
  refine (stored_value_at _ _ _ _ _ _ (m ((c : Thread nD τ).loc main_arg7)) (m ((c : Thread nD τ).loc main_arg8)) (m ((c : Thread nD τ).loc main_arg9)) (m ((c : Thread nD τ).loc main_arg10)) (m ((c : Thread nD τ).loc main_arg11))
    (weight_block_1 m c t) (weight_block_2 m c t) (weight_block_3 m c t) (weight_block_4 m c t) (weight_block_5 m c t) p q).trans ?_
  refine congrArg (fun x => mlp5Row (K := 970) (H := 512) (N := 256) _ _ _ _ _ x q) (funext fun k => ?_)
  show (entry m c main_v47 : S131072x970.Idx → EReal) (((cfg0.win 0).blk t).view.emb (ix2 p k)) = _
  refine (congrFun (entry_features m c) _).trans (congrArg _ (funext fun a => Fin.ext ?_))
  match a with
  | ⟨0, _⟩ => show win0_0.index t (0 : Fin 2) * 2048 + 1 * p.val = t.val * 2048 + p.val; omega
  | ⟨1, _⟩ => show win0_0.index t (1 : Fin 2) * 970 + 1 * k.val = k.val; omega

/-- An index is in point t's block iff each coordinate is in the block's range on its axis. -/
theorem mem_block (t : Fin cfg0.N) (i : S131072x256.Idx) :
    i ∈ ((cfg0.win 6).blk t).view.set ↔ ∀ a : Fin 2, win0_6.index t a * S2048x256.size a ≤ (i a).val ∧ (i a).val < win0_6.index t a * S2048x256.size a + S2048x256.size a := by
  show i ∈ ((View.whole main_v58).slice (win0_6.rect t)).set ↔ _
  rw [View.set_slice_whole, Rect.mem_set_unit]
  exact Iff.rfl

/-- Every index of the result array is in the block of the point its row belongs to. -/
theorem covered (i : S131072x256.Idx) : ∃ t : Fin cfg0.N, (cfg0.win 6).flush t = true ∧ i ∈ ((cfg0.win 6).blk t).view.set := by
  have h0 : (i 0).val < 131072 := (i 0).isLt
  have h1 : (i 1).val < 256 := (i 1).isLt
  have hN : (i 0).val / 2048 < cfg0.N := by rw [show cfg0.N = 64 from N_0]; omega
  obtain ⟨-, -, e60, e61, -⟩ := index_facts ⟨(i 0).val / 2048, hN⟩
  refine ⟨⟨(i 0).val / 2048, hN⟩, flush0_6 _, ?_⟩
  rw [mem_block]
  intro a
  match a with
  | ⟨0, _⟩ =>
    show win0_6.index ⟨(i 0).val / 2048, hN⟩ (0 : Fin 2) * 2048 ≤ (i 0).val ∧ (i 0).val < win0_6.index ⟨(i 0).val / 2048, hN⟩ (0 : Fin 2) * 2048 + 2048
    rw [e60]; show (i 0).val / 2048 * 2048 ≤ (i 0).val ∧ (i 0).val < (i 0).val / 2048 * 2048 + 2048; omega
  | ⟨1, _⟩ =>
    show win0_6.index ⟨(i 0).val / 2048, hN⟩ (1 : Fin 2) * 256 ≤ (i 1).val ∧ (i 1).val < win0_6.index ⟨(i 0).val / 2048, hN⟩ (1 : Fin 2) * 256 + 256
    rw [e61]; omega

/-- After the run the result array is `resultOf`. -/
theorem result_array (c : Dev nD) : (data m 0 c).arrAt 6 cfg0.N = resultOf m c :=
  (data m 0 c).arrAt_eq_of_cover 6 (resultOf m c) (fun t _ => written_back m c t) covered

/-- The run of the idealized kernel with its result named: it ends with the result array at `resultOf` and the
    twelve arguments as launched. -/
theorem run_result : θ_run defs (onTc (τ := τ) (main (F := Ideal))) ⟨m, fun _ => 0, ρ⟩ fun r => ∀ c : Dev nD,
      r.2.mem ((c : Thread nD τ).loc main_v58) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨((h c).1 6).trans (result_array m c),
      ((h c).2 main_arg0 (Pipeline.mem_restRefs_of main_arg0 (by decide) (by decide))).trans (entry_arg0 m c),
      ((h c).2 main_arg1 (Pipeline.mem_restRefs_of main_arg1 (by decide) (by decide))).trans (entry_arg1 m c),
      ((h c).2 main_arg2 (Pipeline.mem_restRefs_of main_arg2 (by decide) (by decide))).trans (entry_arg2 m c),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c)⟩)
    (run_to_post m ρ)

end Cert.KernelIdeal.Region

end
-- ==== Proof.lean ====
/-
  The certificate of the triplet-feature perceptron kernel against its reference.

  Both programs compute, from the same arguments, a [131072, 970] feature matrix (three gathered node rows, two
  radial-basis embeddings, two columns, by identical host operations) and pass each row through four gated dense
  layers and a final dense layer, weights stored [out, in].  The kernel transposes the weights on the host and runs
  the layers on blocks of 2048 rows inside one pipeline; the reference multiplies the whole matrix by each transposed
  weight.  At the extended reals a change of float format is the identity, a product accumulated into zeros is the
  plain sum over the contracted axis, and the kernel's logistic is the reference's 1 / (1 + e^(−z)); every layer acts
  on each row by itself, so the blocking does not matter and the two results agree entry by entry.  No finiteness of
  the inputs is used.

  The three frame claims: each kernel program is a host stretch followed by one region whose body loads whole blocks
  and stores one whole block, so it runs to the end without a fault and writes no argument; the reference is a line of
  host operations.  The idealization rewrote nothing, so that claim is trivial.
-/
import proofs.«160854_j67783173865692_1_alg».proof.Defs
import proofs.«160854_j67783173865692_1_alg».proof.Proof.Gen.Kernel
import proofs.«160854_j67783173865692_1_alg».proof.Proof.Gen.KernelIdeal
import proofs.«160854_j67783173865692_1_alg».proof.Proof.Gen.ReferenceIdeal
import proofs.«160854_j67783173865692_1_alg».proof.Proof.Gen.Pre_finite_inputs
import proofs.«160854_j67783173865692_1_alg».proof.Proof.BitsBody
import proofs.«160854_j67783173865692_1_alg».proof.Proof.IdealArray
import proofs.«160854_j67783173865692_1_alg».proof.Proof.RefRows
import Idealize.ShloMosaic.Adequacy
import Idealize.ShloMosaic.Init

noncomputable section

namespace Cert.Proof

open Idealize.ShloMosaic Idealize.ShloMosaic.TcCoe Idealize.SL.Sem

/-- The word-level kernel runs, faults nowhere, and keeps its arguments. -/
theorem frame_kernel : Cert.frame_Kernel := fun m ρ _ => Cert.Kernel.Region.args_kept m ρ

/-- So does the idealized kernel. -/
theorem frame_kernel_ideal : Cert.frame_KernelIdeal := fun m ρ _ => Cert.KernelIdeal.Region.args_kept m ρ

/-- The reference is a line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the result array at the same function
    of the arguments: the perceptron of each row of the feature matrix. -/
theorem algebraic : Cert.algebraic_KernelIdeal_ReferenceIdeal := by
  intro m ρ m' ρ' _ hagree
  refine ⟨fun c => Cert.KernelIdeal.Region.resultOf m c, Cert.KernelIdeal.Region.run_result m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v61_eq, Cert.ReferenceIdeal.Rows.reference_result,
    a0, a1, a2, a3, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
